-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x128 : Shape := ⟨2, ![50000, 128]⟩
abbrev S2x1600000 : Shape := ⟨2, ![2, 1600000]⟩
abbrev S1600000 : Shape := ⟨1, ![1600000]⟩
abbrev S1600000x64 : Shape := ⟨2, ![1600000, 64]⟩
abbrev S100x128 : Shape := ⟨2, ![100, 128]⟩
abbrev S128x64 : Shape := ⟨2, ![128, 64]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x64 : S_.BroadcastsInDim S1600000x64 (![] : Fin 0 → Fin S1600000x64.rank)
  reducesTo_S1600000x64_S_d0_1 : S1600000x64.ReducesTo [0, 1] S_
  bcast_S_S100x128 : S_.BroadcastsInDim S100x128 (![] : Fin 0 → Fin S100x128.rank)
  reducesTo_S100x128_S_d0_1 : S100x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x64 .f32) (main_arg7 : FVec F S128 .f32) (main_arg8 : FVec F S128x256 .f32) (main_arg9 : FVec F S128 .f32) (main_v13 : IVec S_ 1) (main_v16 : IVec S100x128 1) : IVec S_ 1 :=
  let main_c_5 : IVec S_ 1 := constantI S_ 1 1#1
  let main_v17 : IVec S_ 1 := (fun x v => Host.reduce IntOp.andi x v reducesTo_S100x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_v33

def fn {F : FTy → Type} [FloatOps F] (main_arg0 : IVec S50000 32) (main_arg1 : FVec F S50000x128 .f32) (main_arg2 : IVec S2x1600000 32) (main_arg3 : FVec F S1600000 .f32) (main_arg4 : FVec F S1600000x64 .f32) (main_arg5 : FVec F S100x128 .f32) (main_arg6 : FVec F S128x64 .f32) (main_arg7 : FVec F S128 .f32) (main_arg8 : FVec F S128x256 .f32) (main_arg9 : FVec F S128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x64 .f32 := Host.absf main_arg4
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S100x128 .f32 := Host.absf main_arg5
  let main_cst_4 : FVec F S_ .f32 := constant S_ .f32 0x7F800000#32
  let main_v15 : FVec F S100x128 .f32 := broadcastInDim S100x128 ![] bcast_S_S100x128 main_cst_4
  let main_v16 : IVec S100x128 1 := cmpf .olt main_v14 main_v15
  fn_part1 (F := F) main_arg6 main_arg7 main_arg8 main_arg9 main_v13 main_v16
-- ==== Kernel.lean ====
abbrev S50000 : Shape := ⟨1, ![50000]⟩
abbrev S50000x128 : Shape := ⟨2, ![50000, 128]⟩
abbrev S2x1600000 : Shape := ⟨2, ![2, 1600000]⟩
abbrev S1600000 : Shape := ⟨1, ![1600000]⟩
abbrev S1600000x64 : Shape := ⟨2, ![1600000, 64]⟩
abbrev S100x128 : Shape := ⟨2, ![100, 128]⟩
abbrev S128x64 : Shape := ⟨2, ![128, 64]⟩
abbrev S128 : Shape := ⟨1, ![128]⟩
abbrev S128x256 : Shape := ⟨2, ![128, 256]⟩
abbrev S1x1600000 : Shape := ⟨2, ![1, 1600000]⟩
abbrev S_ : Shape := ⟨0, ![]⟩
abbrev S50000x1 : Shape := ⟨2, ![50000, 1]⟩
abbrev S1600000x1 : Shape := ⟨2, ![1600000, 1]⟩
abbrev S1600000x128 : Shape := ⟨2, ![1600000, 128]⟩
abbrev S1605632x64 : Shape := ⟨2, ![1605632, 64]⟩
abbrev S1605632x128 : Shape := ⟨2, ![1605632, 128]⟩
abbrev S1605632 : Shape := ⟨1, ![1605632]⟩
abbrev S64x128 : Shape := ⟨2, ![64, 128]⟩
abbrev S8192x64 : Shape := ⟨2, ![8192, 64]⟩
abbrev S8192x128 : Shape := ⟨2, ![8192, 128]⟩
abbrev S1x128 : Shape := ⟨2, ![1, 128]⟩
abbrev S1605632x1 : Shape := ⟨2, ![1605632, 1]⟩
abbrev S128x128 : Shape := ⟨2, ![128, 128]⟩
abbrev S5000x128 : Shape := ⟨2, ![5000, 128]⟩

abbrev nBuf : Space → Nat
  | .hbm => 78
  | .vmem => 17
  | .smem => 0
  | _ => 0

abbrev bufTy : (tb : Table) → Fin (tcTables nBuf tb) → BufTy
  | .hbm, ⟨0, _⟩ => ⟨S50000, .i32⟩
  | .hbm, ⟨1, _⟩ => ⟨S50000x128, .f32⟩
  | .hbm, ⟨2, _⟩ => ⟨S2x1600000, .i32⟩
  | .hbm, ⟨3, _⟩ => ⟨S1600000, .f32⟩
  | .hbm, ⟨4, _⟩ => ⟨S1600000x64, .f32⟩
  | .hbm, ⟨5, _⟩ => ⟨S100x128, .f32⟩
  | .hbm, ⟨6, _⟩ => ⟨S128x64, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S50000x128, .f32⟩
  | .hbm, ⟨23, _⟩ => ⟨S1600000, .i1⟩
  | .hbm, ⟨24, _⟩ => ⟨S1600000, .f32⟩
  | .hbm, ⟨25, _⟩ => ⟨S_, .f32⟩
  | .hbm, ⟨26, _⟩ => ⟨S1600000, .f32⟩
  | .hbm, ⟨27, _⟩ => ⟨S1600000, .f32⟩
  | .hbm, ⟨28, _⟩ => ⟨S1600000, .f32⟩
  | .hbm, ⟨29, _⟩ => ⟨S_, .f32⟩
  | .hbm, ⟨30, _⟩ => ⟨S1600000, .f32⟩
  | .hbm, ⟨31, _⟩ => ⟨S1600000, .f32⟩
  | .hbm, ⟨32, _⟩ => ⟨S_, .f32⟩
  | .hbm, ⟨33, _⟩ => ⟨S1600000, .f32⟩
  | .hbm, ⟨34, _⟩ => ⟨S1600000, .f32⟩
  | .hbm, ⟨35, _⟩ => ⟨S_, .f32⟩
  | .hbm, ⟨36, _⟩ => ⟨S1600000, .f32⟩
  | .hbm, ⟨37, _⟩ => ⟨S1600000, .i1⟩
  | .hbm, ⟨38, _⟩ => ⟨S1600000, .f32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .i32⟩
  | .hbm, ⟨54, _⟩ => ⟨S_, .f32⟩
  | .hbm, ⟨55, _⟩ => ⟨S1605632x64, .f32⟩
  | .hbm, ⟨56, _⟩ => ⟨S_, .i32⟩
  | .hbm, ⟨57, _⟩ => ⟨S_, .f32⟩
  | .hbm, ⟨58, _⟩ => ⟨S1605632x128, .f32⟩
  | .hbm, ⟨59, _⟩ => ⟨S_, .i32⟩
  | .hbm, ⟨60, _⟩ => ⟨S_, .i32⟩
  | .hbm, ⟨61, _⟩ => ⟨S1605632, .i32⟩
  | .hbm, ⟨62, _⟩ => ⟨S1605632x64, .bf16⟩
  | .hbm, ⟨63, _⟩ => ⟨S1605632x128, .bf16⟩
  | .hbm, ⟨64, _⟩ => ⟨S64x128, .f32⟩
  | .hbm, ⟨65, _⟩ => ⟨S64x128, .bf16⟩
  | .hbm, ⟨66, _⟩ => ⟨S1605632x128, .f32⟩
  | .hbm, ⟨67, _⟩ => ⟨S_, .f32⟩
  | .hbm, ⟨68, _⟩ => ⟨S50000x128, .f32⟩
  | .hbm, ⟨69, _⟩ => ⟨S1605632x1, .i32⟩
  | .hbm, ⟨70, _⟩ => ⟨S50000x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S128x128, .bf16⟩
  | .hbm, ⟨75, _⟩ => ⟨S128x128, .f32⟩
  | .hbm, ⟨76, _⟩ => ⟨S128x128, .bf16⟩
  | .hbm, ⟨77, _⟩ => ⟨S50000x128, .f32⟩
  | .local _ .vmem, ⟨0, _⟩ => ⟨S8192x64, .bf16⟩
  | .local _ .vmem, ⟨1, _⟩ => ⟨S8192x64, .bf16⟩
  | .local _ .vmem, ⟨2, _⟩ => ⟨S8192x128, .bf16⟩
  | .local _ .vmem, ⟨3, _⟩ => ⟨S8192x128, .bf16⟩
  | .local _ .vmem, ⟨4, _⟩ => ⟨S64x128, .bf16⟩
  | .local _ .vmem, ⟨5, _⟩ => ⟨S128, .f32⟩
  | .local _ .vmem, ⟨6, _⟩ => ⟨S8192x128, .f32⟩
  | .local _ .vmem, ⟨7, _⟩ => ⟨S8192x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S128x128, .bf16⟩
  | .local _ .vmem, ⟨14, _⟩ => ⟨S128, .f32⟩
  | .local _ .vmem, ⟨15, _⟩ => ⟨S5000x128, .f32⟩
  | .local _ .vmem, ⟨16, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_call0_v0 : Ref sig .tc := ⟨.hbm, 54, rfl⟩
abbrev main_v35 : Ref sig .tc := ⟨.hbm, 55, rfl⟩
abbrev main_c_7 : Ref sig .tc := ⟨.hbm, 56, rfl⟩
abbrev main_call1_v0 : Ref sig .tc := ⟨.hbm, 57, rfl⟩
abbrev main_v36 : Ref sig .tc := ⟨.hbm, 58, rfl⟩
abbrev main_c_8 : Ref sig .tc := ⟨.hbm, 59, rfl⟩
abbrev main_call2_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S50000_S50000x1_0 : S50000.BroadcastsInDim S50000x1 (![0] : Fin 1 → Fin S50000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  pads_S1600000x64_S1605632x64_056320_000 : S1600000x64.Pads (![0, 0] : Fin 2 → Nat) ![5632, 0] ![0, 0] S1605632x64
  h_S_ : 0 < S_.numel
  pads_S1600000x128_S1605632x128_056320_000 : S1600000x128.Pads (![0, 0] : Fin 2 → Nat) ![5632, 0] ![0, 0] S1605632x128
  pads_S1600000_S1605632_056320 : S1600000.Pads (![0] : Fin 1 → Nat) ![5632] ![0] S1605632
  bitsLt_bf16_f32 : FTy.bits .bf16 < FTy.bits .f32
  transposes_S128x64_S64x128_1_0 : S128x64.Transposes [1, 0] S64x128
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bcast_S_S50000x128 : S_.BroadcastsInDim S50000x128 (![] : Fin 0 → Fin S50000x128.rank)
  bcast_S1605632_S1605632x1_0 : S1605632.BroadcastsInDim S1605632x1 (![0] : Fin 1 → Fin S1605632x1.rank)
  slices_S128x256_S128x128_0_0 : S128x256.Slices ![0, 0] S128x128
  slices_S128x256_S128x128_0_128 : S128x256.Slices ![0, 128] S128x128
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  gather_S100x128_S50000x1_S50000x128_1_0_n_n_0_1_1128_wf : GatherDims.WF S100x128 S50000x1 S50000x128 [1] [0] [] [0] [] 1 ![1, 128]
  gather_S50000x128_S1600000x1_S1600000x128_1_0_n_n_0_1_1128_wf : GatherDims.WF S50000x128 S1600000x1 S1600000x128 [1] [0] [] [0] [] 1 ![1, 128]
  dot_S8192x64_S64x128_S8192x128_1_0_0_1_n_n_wf : DotDims.WF S8192x64 S64x128 S8192x128 [1] [0] [0] [1] [] []
  scatter_S50000x128_S1605632x1_S1605632x128_1_0_0_1_wf : ScatterDims.WF S50000x128 S1605632x1 S1605632x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1605632x64.size a
  hwx0_0 : ∀ i : grid0.Coords, EltTy.bits .bf16 = 32 ∨ (Rect.block (s := S1605632x64) S8192x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1605632x128.size a
  hwx0_1 : ∀ i : grid0.Coords, EltTy.bits .bf16 = 32 ∨ (Rect.block (s := S1605632x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S1605632x128.size a
  hwx0_4 : ∀ i : grid0.Coords, EltTy.bits .f32 = 32 ∨ (Rect.block (s := S1605632x128) S8192x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def scatter_S50000x128_S1605632x1_S1605632x128_1_0_0_1 : ScatterDims S50000x128 S1605632x1 S1605632x128 where
  updateWindowDims := [1]
  insertedWindowDims := [0]
  scatterDimsToOperandDims := [0]
  indexVectorDim := 1
  wf := scatter_S50000x128_S1605632x1_S1605632x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v38) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000 : Shape := ⟨1, ![50000]⟩
abbrev S50000x128 : Shape := ⟨2, ![50000, 128]⟩
abbrev S2x1600000 : Shape := ⟨2, ![2, 1600000]⟩
abbrev S1600000 : Shape := ⟨1, ![1600000]⟩
abbrev S1600000x64 : Shape := ⟨2, ![1600000, 64]⟩
abbrev S100x128 : Shape := ⟨2, ![100, 128]⟩
abbrev S128x64 : Shape := ⟨2, ![128, 64]⟩
abbrev S128 : Shape := ⟨1, ![128]⟩
abbrev S128x256 : Shape := ⟨2, ![128, 256]⟩
abbrev S1x1600000 : Shape := ⟨2, ![1, 1600000]⟩
abbrev S_ : Shape := ⟨0, ![]⟩
abbrev S64x128 : Shape := ⟨2, ![64, 128]⟩
abbrev S1600000x128 : Shape := ⟨2, ![1600000, 128]⟩
abbrev S1x128 : Shape := ⟨2, ![1, 128]⟩
abbrev S1600000x1 : Shape := ⟨2, ![1600000, 1]⟩
abbrev S50000x1 : Shape := ⟨2, ![50000, 1]⟩
abbrev S50000x256 : Shape := ⟨2, ![50000, 256]⟩
abbrev S256x128 : Shape := ⟨2, ![256, 128]⟩

abbrev nBuf : Space → Nat
  | .hbm => 69
  | .vmem => 0
  | .smem => 0
  | _ => 0

abbrev bufTy : (tb : Table) → Fin (tcTables nBuf tb) → BufTy
  | .hbm, ⟨0, _⟩ => ⟨S50000, .i32⟩
  | .hbm, ⟨1, _⟩ => ⟨S50000x128, .f32⟩
  | .hbm, ⟨2, _⟩ => ⟨S2x1600000, .i32⟩
  | .hbm, ⟨3, _⟩ => ⟨S1600000, .f32⟩
  | .hbm, ⟨4, _⟩ => ⟨S1600000x64, .f32⟩
  | .hbm, ⟨5, _⟩ => ⟨S100x128, .f32⟩
  | .hbm, ⟨6, _⟩ => ⟨S128x64, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1600000, .i1⟩
  | .hbm, ⟨15, _⟩ => ⟨S1600000, .f32⟩
  | .hbm, ⟨16, _⟩ => ⟨S_, .f32⟩
  | .hbm, ⟨17, _⟩ => ⟨S1600000, .f32⟩
  | .hbm, ⟨18, _⟩ => ⟨S1600000, .f32⟩
  | .hbm, ⟨19, _⟩ => ⟨S1600000, .f32⟩
  | .hbm, ⟨20, _⟩ => ⟨S_, .f32⟩
  | .hbm, ⟨21, _⟩ => ⟨S1600000, .f32⟩
  | .hbm, ⟨22, _⟩ => ⟨S1600000, .f32⟩
  | .hbm, ⟨23, _⟩ => ⟨S_, .f32⟩
  | .hbm, ⟨24, _⟩ => ⟨S1600000, .f32⟩
  | .hbm, ⟨25, _⟩ => ⟨S1600000, .f32⟩
  | .hbm, ⟨26, _⟩ => ⟨S_, .f32⟩
  | .hbm, ⟨27, _⟩ => ⟨S1600000, .f32⟩
  | .hbm, ⟨28, _⟩ => ⟨S1600000, .i1⟩
  | .hbm, ⟨29, _⟩ => ⟨S1600000, .f32⟩
  | .hbm, ⟨30, _⟩ => ⟨S1600000, .f32⟩
  | .hbm, ⟨31, _⟩ => ⟨S64x128, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S1600000, .f32⟩
  | .hbm, ⟨37, _⟩ => ⟨S1600000x1, .f32⟩
  | .hbm, ⟨38, _⟩ => ⟨S1600000x128, .f32⟩
  | .hbm, ⟨39, _⟩ => ⟨S1600000x128, .f32⟩
  | .hbm, ⟨40, _⟩ => ⟨S_, .i32⟩
  | .hbm, ⟨41, _⟩ => ⟨S50000, .i32⟩
  | .hbm, ⟨42, _⟩ => ⟨S50000, .i1⟩
  | .hbm, ⟨43, _⟩ => ⟨S_, .i32⟩
  | .hbm, ⟨44, _⟩ => ⟨S50000, .i32⟩
  | .hbm, ⟨45, _⟩ => ⟨S50000, .i32⟩
  | .hbm, ⟨46, _⟩ => ⟨S50000, .i32⟩
  | .hbm, ⟨47, _⟩ => ⟨S50000x1, .i32⟩
  | .hbm, ⟨48, _⟩ => ⟨S50000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S50000x128, .f32⟩
  | .hbm, ⟨61, _⟩ => ⟨S1600000x1, .i32⟩
  | .hbm, ⟨62, _⟩ => ⟨S50000x128, .f32⟩
  | .hbm, ⟨63, _⟩ => ⟨S50000x256, .f32⟩
  | .hbm, ⟨64, _⟩ => ⟨S256x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  transposes_S128x64_S64x128_1_0 : S128x64.Transposes [1, 0] S64x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  dot_S1600000x64_S64x128_S1600000x128_1_0_0_1_n_n_wf : DotDims.WF S1600000x64 S64x128 S1600000x128 [1] [0] [0] [1] [] []
  gather_S100x128_S50000x1_S50000x128_1_0_n_n_0_1_1128_wf : GatherDims.WF S100x128 S50000x1 S50000x128 [1] [0] [] [0] [] 1 ![1, 128]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x256_S256x128_S50000x128_1_0_0_1_n_n_wf : DotDims.WF S50000x256 S256x128 S50000x128 [1] [0] [0] [1] [] []

variable [Facts₀]

def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named.

  The program is two grid regions among stretches of host operations.  Every weakly fair execution ends, without a
  fault, with every buffer at the contents obtained by folding the program's segments over the launch memory: a host
  stretch rewrites the buffers its operations write, a region leaves each of its arrays at what its grid points wrote
  back.  Here that run is stated with the result buffer read at this fold's last stage, beside the unchanged
  arguments; the later modules compute that stage as a function of the arguments.
-/
import proofs.«122496_j52561809768953_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    stage of the fold of the program's segments over the launch memory, and the argument arrays end as launched. -/
theorem run_named : θ_run defs (onTc (τ := τ) (main (F := F))) ⟨m, fun _ => 0, ρ⟩ (fun r => ∀ c : Dev nD,
      r.2.mem ((c.tc : Thread nD τ).loc main_v52) = W10 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v52 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunValue

end
-- ==== Proof.KernelReads.lean ====
/-
  What the kernel's two regions find at entry, as terms of the arguments.

  Before the edge-filter region the host pads the edge features, the scaled gathered rows and the start nodes from
  1600000 to 1605632 edges (zeros; start node 0), transposes the projection matrix, and narrows the float operands
  (the identity on extended reals).  Between the regions it scatters the message rows into per-node aggregates and cuts
  the combining matrix into its two halves, each transposed.  Each buffer is read here through the fold of the host
  stretches.  The embedding gathers, the scale vector and the start-node vector are written as the reference's stages
  of the same names: both programs compute them by the same operations on the same arguments.
-/
import proofs.«122496_j52561809768953_1_alg».proof.Proof.Gen.KernelIdeal.Frame
import proofs.«122496_j52561809768953_1_alg».proof.Proof.Gen.ReferenceIdeal.Read
import Idealize.ShloMosaic.Lib.StableHlo.Run

set_option maxRecDepth 16384

noncomputable section

namespace Cert.KernelIdeal.Reads

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the edge-filter region's entry -/

set_option maxHeartbeats 2000000 in
/-- The padded edge features. -/
theorem attr_eq : (V7 m ρ c main_v38 : S1605632x64.Idx → EReal) = truncf (F := Ideal) .bf16 (pad S1605632x64 ![0, 0] ![5632, 0] ![0, 0]
    (m ((c : Thread nD τ).loc main_arg4)) (sitofp (F := Ideal) .f32 (constantI S_ 32 0#32)) pads_S1600000x64_S1605632x64_056320_000 h_S_) bitsLt_bf16_f32 := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v38) = _
  dsimp only [hostOps0, hostOps0_1, hostOps0_2, hostOps0_3, hostOps0_4, hostOps0_5, hostOps0_6]
  after_results_simp <;> rfl

set_option maxHeartbeats 4000000 in
/-- The padded scaled gathered rows. -/
theorem hdst_eq : (V7 m ρ c main_v39 : S1605632x128.Idx → EReal) = truncf (F := Ideal) .bf16 (pad S1605632x128 ![0, 0] ![5632, 0] ![0, 0]
    (mulf (F := Ideal) (Cert.ReferenceIdeal.Read.val_main_v39 (F := Ideal) (m ((c : Thread nD τ).loc main_arg0)) (m ((c : Thread nD τ).loc main_arg2)) (m ((c : Thread nD τ).loc main_arg5)))
      (broadcastInDim S1600000x128 ![0, 1] bcast_S1600000x1_S1600000x128_0_1 (broadcastInDim S1600000x1 ![0] bcast_S1600000_S1600000x1_0
        (Cert.ReferenceIdeal.Read.val_main_v22 (F := Ideal) (m ((c : Thread nD τ).loc main_arg2)) (m ((c : Thread nD τ).loc main_arg3))))))
    (sitofp (F := Ideal) .f32 (constantI S_ 32 0#32)) pads_S1600000x128_S1605632x128_056320_000 h_S_) bitsLt_bf16_f32 := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v39) = _
  dsimp only [hostOps0, hostOps0_1, hostOps0_2, hostOps0_3, hostOps0_4, hostOps0_5, hostOps0_6]
  after_results_simp <;> rfl

set_option maxHeartbeats 2000000 in
/-- The transposed projection matrix. -/
theorem projT_eq : (V7 m ρ c main_v41 : S64x128.Idx → EReal) = truncf (F := Ideal) .bf16 (transpose S64x128 [1, 0] (m ((c : Thread nD τ).loc main_arg6)) transposes_S128x64_S64x128_1_0) bitsLt_bf16_f32 := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v41) = _
  dsimp only [hostOps0, hostOps0_1, hostOps0_2, hostOps0_3, hostOps0_4, hostOps0_5, hostOps0_6]
  after_results_simp <;> rfl

set_option maxHeartbeats 2000000 in
/-- The padded start nodes. -/
theorem srcp_eq : (W7 m ρ c (Proc.devRef .tc main_v37) : S1605632.Idx → BitVec 32) = pad S1605632 ![0] ![5632] ![0]
    (Cert.ReferenceIdeal.Read.val_main_v1 (F := Ideal) (m ((c : Thread nD τ).loc main_arg2))) (constantI S_ 32 0#32) pads_S1600000_S1605632_056320 h_S_ := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v37) = _
  dsimp only [hostOps0, hostOps0_1, hostOps0_2, hostOps0_3, hostOps0_4, hostOps0_5, hostOps0_6]
  after_results_simp <;> rfl

set_option maxHeartbeats 2000000 in
theorem W7_arg1 : W7 m ρ c (Proc.devRef .tc main_arg1) = (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg1) = _
  dsimp only [hostOps0, hostOps0_1, hostOps0_2, hostOps0_3, hostOps0_4, hostOps0_5, hostOps0_6]
  after_results_simp <;> rfl

set_option maxHeartbeats 2000000 in
theorem W7_arg7 : W7 m ρ c (Proc.devRef .tc main_arg7) = (m ((c : Thread nD τ).loc main_arg7)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg7) = _
  dsimp only [hostOps0, hostOps0_1, hostOps0_2, hostOps0_3, hostOps0_4, hostOps0_5, hostOps0_6]
  after_results_simp <;> rfl

set_option maxHeartbeats 2000000 in
theorem W7_arg8 : W7 m ρ c (Proc.devRef .tc main_arg8) = (m ((c : Thread nD τ).loc main_arg8)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg8) = _
  dsimp only [hostOps0, hostOps0_1, hostOps0_2, hostOps0_3, hostOps0_4, hostOps0_5, hostOps0_6]
  after_results_simp <;> rfl

set_option maxHeartbeats 2000000 in
theorem W7_arg9 : W7 m ρ c (Proc.devRef .tc main_arg9) = (m ((c : Thread nD τ).loc main_arg9)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg9) = _
  dsimp only [hostOps0, hostOps0_1, hostOps0_2, hostOps0_3, hostOps0_4, hostOps0_5, hostOps0_6]
  after_results_simp <;> rfl

/-! ## At the combine region's entry -/

/-- The node features are the argument. -/
theorem x_eq : V9 m ρ c main_arg1 = (m ((c : Thread nD τ).loc main_arg1)) := by
  show StableHlo.after hostOps1 (W8 m ρ c) (Proc.devRef .tc main_arg1) = _
  dsimp only [hostOps1]
  after_results_simp
  exact (W8_of_ne m ρ c main_arg1 (by decide)).trans (W7_arg1 m ρ c)

/-- The combine bias is the argument. -/
theorem cb_eq : V9 m ρ c main_arg9 = (m ((c : Thread nD τ).loc main_arg9)) := by
  show StableHlo.after hostOps1 (W8 m ρ c) (Proc.devRef .tc main_arg9) = _
  dsimp only [hostOps1]
  after_results_simp
  exact (W8_of_ne m ρ c main_arg9 (by decide)).trans (W7_arg9 m ρ c)

/-- The first half of the combining matrix, transposed. -/
theorem wx_eq : (V9 m ρ c main_v49 : S128x128.Idx → EReal) = truncf (F := Ideal) .bf16 (transpose S128x128 [1, 0]
    (extractStridedSlice S128x128 ![0, 0] (m ((c : Thread nD τ).loc main_arg8)) slices_S128x256_S128x128_0_0) transposes_S128x128_S128x128_1_0) bitsLt_bf16_f32 := by
  show StableHlo.after hostOps1 (W8 m ρ c) (Proc.devRef .tc main_v49) = _
  dsimp only [hostOps1]
  after_results_simp
  rw [(W8_of_ne m ρ c main_arg8 (by decide)).trans (W7_arg8 m ρ c)]

/-- The second half of the combining matrix, transposed. -/
theorem wa_eq : (V9 m ρ c main_v51 : S128x128.Idx → EReal) = truncf (F := Ideal) .bf16 (transpose S128x128 [1, 0]
    (extractStridedSlice S128x128 ![0, 128] (m ((c : Thread nD τ).loc main_arg8)) slices_S128x256_S128x128_0_128) transposes_S128x128_S128x128_1_0) bitsLt_bf16_f32 := by
  show StableHlo.after hostOps1 (W8 m ρ c) (Proc.devRef .tc main_v51) = _
  dsimp only [hostOps1]
  after_results_simp
  rw [(W8_of_ne m ρ c main_arg8 (by decide)).trans (W7_arg8 m ρ c)]

/-- The node aggregates: the message rows the edge-filter region left, scattered with accumulation into zeros along
    the padded start nodes. -/
theorem agg_eq : (V9 m ρ c main_v45 : S50000x128.Idx → EReal) = Host.scatterAdd (F := Ideal) scatter_S50000x128_S1605632x1_S1605632x128_1_0_0_1
    (broadcastInDim S50000x128 ![] bcast_S_S50000x128 (constant (F := Ideal) S_ .f32 0x00000000#32))
    (broadcastInDim S1605632x1 ![0] bcast_S1605632_S1605632x1_0 (pad S1605632 ![0] ![5632] ![0]
      (Cert.ReferenceIdeal.Read.val_main_v1 (F := Ideal) (m ((c : Thread nD τ).loc main_arg2))) (constantI S_ 32 0#32) pads_S1600000_S1605632_056320 h_S_))
    ((dat0 (V7 m ρ) c).arrAt 4 cfg0.N) := by
  have h : (StableHlo.after hostOps1 (W8 m ρ c) (Proc.devRef .tc main_v45) : S50000x128.Idx → EReal)
      = Host.scatterAdd (F := Ideal) scatter_S50000x128_S1605632x1_S1605632x128_1_0_0_1
        (broadcastInDim S50000x128 ![] bcast_S_S50000x128 (constant (F := Ideal) S_ .f32 0x00000000#32))
        (broadcastInDim S1605632x1 ![0] bcast_S1605632_S1605632x1_0 (W8 m ρ c (Proc.devRef .tc main_v37)))
        (W8 m ρ c (Proc.devRef .tc main_v42)) := by
    dsimp only [hostOps1]
    after_results_simp <;> rfl
  refine h.trans ?_
  rw [W8_of_ne m ρ c main_v37 (by decide), srcp_eq m ρ c,
    show W8 m ρ c (Proc.devRef .tc main_v42) = (dat0 (V7 m ρ) c).arrAt 4 cfg0.N from W8_arr m ρ c 4]

/-- The bias of the projection, as the edge-filter region finds it, is the argument. -/
theorem pb_eq : V7 m ρ c main_arg7 = (m ((c : Thread nD τ).loc main_arg7)) := W7_arg7 m ρ c

end Cert.KernelIdeal.Reads

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.Combine.lean ====
/-
  The combine region as one function of the arrays it finds.

  The grid has 10 points; point t works on rows 5000·t … 5000·t + 4999 of the node features x and of the node
  aggregates, with both weight matrices and the bias whole.  Its body forms, for a row p of the block and a column j,
  (Σ_k x(p,k)·Wx(k,j)) + (Σ_k agg(p,k)·Wa(k,j)) + b(j): two matrix products into zero accumulators, their sum, and the
  bias row added to every row (the changes of float format are the identity on extended reals).  The blocks the points
  write back tile the 50000 rows, so the output array ends as that expression of whole arrays at every entry.
-/
import proofs.«122496_j52561809768953_1_alg».proof.Proof.Gen.KernelIdeal.Frame
import proofs.«122496_j52561809768953_1_alg».proof.Proof.LibMatmulRowCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's two matrix products share these dimension numbers: [5000,128] by [128,128], the left operand's columns
    contracted against the right operand's rows. -/
abbrev D := dot_S5000x128_S128x128_S5000x128_1_0_0_1_n_n

theorem D_l0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem D_l1 (i : S5000x128.Idx) (q : D.contr.Idx) : (D.lhsIdx i q 1).val = (q ⟨0, by decide⟩).val :=
  D.lhsIdx_val_of_single rfl i q
theorem D_r0 (i : S5000x128.Idx) (q : D.contr.Idx) : (D.rhsIdx i q 0).val = (q ⟨0, by decide⟩).val :=
  D.rhsIdx_val_of_single rfl i q
theorem D_r1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The body's value at row p, column j of its block. -/
theorem pay_apply (x0 x1 : Vec Ideal S5000x128 .f32) (w0 w1 : Vec Ideal S128x128 .bf16) (b0 : Vec Ideal S128 .f32)
    (p : Fin 5000) (j : Fin 128) :
    k1_pay1 (F := Ideal) x0 x1 w0 w1 b0 (ix2 p j)
      = ((∑ k : Fin 128, x0 (ix2 p k) * w0 (ix2 k j)) + ∑ k : Fin 128, x1 (ix2 p k) * w1 (ix2 k j)) + b0 (ix1 j) := by
  unfold k1_pay1
  rw [addf_apply, addf_apply]
  rw [Cert.LibMatmul.matmul_rowcol D rfl rfl D_l0 D_l1 D_r0 D_r1, Cert.LibMatmul.matmul_rowcol D rfl rfl D_l0 D_l1 D_r0 D_r1]
  rw [broadcastTo_1b_ab_apply, shapeCast_a_1a_apply]
  simp only [truncf_apply, shapeCast_self]

/-- The output array's entry (n, j) as a function of the whole arrays. -/
def G (X AG : S50000x128.Idx → EReal) (wx wa : S128x128.Idx → EReal) (b : S128.Idx → EReal) : S50000x128.Idx → EReal :=
  fun i => ((∑ k : Fin 128, X (ix2 (i 0) k) * wx (ix2 k (i 1))) + ∑ k : Fin 128, AG (ix2 (i 0) k) * wa (ix2 k (i 1))) + b (ix1 (i 1))

/-- `G` at the entry with coordinates (n, j). -/
theorem G_apply (X AG : S50000x128.Idx → EReal) (wx wa : S128x128.Idx → EReal) (b : S128.Idx → EReal) (n : Fin 50000) (j : Fin 128) :
    G X AG wx wa b (ix2 n j)
      = ((∑ k : Fin 128, X (ix2 n k) * wx (ix2 k j)) + ∑ k : Fin 128, AG (ix2 n k) * wa (ix2 k j)) + b (ix1 j) := rfl

/-! ## One grid point -/

/-- If the point's blocks read as rows of `X` and `AG` and as the whole of `wx`, `wa`, `b` (the five hypotheses,
    at the block index `y` and the array index `i`), the body's value at `y` is `G` at `i`. -/
theorem point_eq (X AG : S50000x128.Idx → EReal) (wx wa : S128x128.Idx → EReal) (b : S128.Idx → EReal)
    (x0 x1 : Vec Ideal S5000x128 .f32) (w0 w1 : Vec Ideal S128x128 .bf16) (b0 : Vec Ideal S128 .f32)
    (y : S5000x128.Idx) (p : Fin 5000) (j : Fin 128) (hy : y = ix2 p j) (i : S50000x128.Idx)
    (h0 : ∀ k : Fin 128, x0 (ix2 p k) = X (ix2 (i 0) k))
    (h1 : ∀ k : Fin 128, x1 (ix2 p k) = AG (ix2 (i 0) k))
    (h2 : ∀ k : Fin 128, w0 (ix2 k j) = wx (ix2 k (i 1)))
    (h3 : ∀ k : Fin 128, w1 (ix2 k j) = wa (ix2 k (i 1)))
    (h4 : b0 (ix1 j) = b (ix1 (i 1))) :
    k1_pay1 (F := Ideal) x0 x1 w0 w1 b0 y = G X AG wx wa b i := by
  subst hy
  rw [pay_apply]
  unfold G
  simp only [h0, h1, h2, h3, h4]

theorem hz : (![0, 0] : Fin 2 → Nat) = fun _ => 0 := funext fun a => by fin_cases a <;> rfl
theorem hz1 : (![0] : Fin 1 → Nat) = fun _ => 0 := funext fun a => by fin_cases a <;> rfl

/-- The printed index maps, decided over the 10 grid points: the two row-blocked inputs move with the output's row
    block, which is the point's number; the weights and the bias stay at block 0. -/
theorem idx_facts : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- WHAT POINT `t` WRITES BACK is block `t` of `G` of the arrays the region finds. -/
theorem flushed_eq (c : Dev nD) (t : Fin cfg1.N) :
    (dat1 V c).flushed 5 t = ((cfg1.win 5).blk t).view.read (Elt Ideal)
      (G (V c main_arg1) (V c main_v45) (V c main_v49) (V c main_v51) (V c main_arg9)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S128) hz1]
  obtain ⟨e00, e01, e10, e11, e20, e21, e30, e31, e40, e50, e51⟩ := idx_facts t
  funext y
  refine point_eq (V c main_arg1) (V c main_v45) (V c main_v49) (V c main_v51) (V c main_arg9)
    (iblk1 V c 0 t) (iblk1 V c 1 t) (iblk1 V c 2 t) (iblk1 V c 3 t) (iblk1 V c 4 t) y (y 0) (y 1) (eq_ix2 y) (((cfg1.win 5).blk t).view.emb y)
    (fun k => ?_) (fun k => ?_) (fun k => ?_) (fun k => ?_) ?_
  · show V c main_arg1 (((cfg1.win 0).blk t).view.emb (ix2 (y 0) k)) = V c main_arg1 (ix2 ((((cfg1.win 5).blk t).view.emb y) 0) k)
    refine congrArg (V c main_arg1) (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * k.val = k.val; omega
  · show V c main_v45 (((cfg1.win 1).blk t).view.emb (ix2 (y 0) k)) = V c main_v45 (ix2 ((((cfg1.win 5).blk t).view.emb y) 0) k)
    refine congrArg (V c main_v45) (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 128 + 1 * k.val = k.val; omega
  · show V c main_v49 (((cfg1.win 2).blk t).view.emb (ix2 k (y 1))) = V c main_v49 (ix2 k ((((cfg1.win 5).blk t).view.emb y) 1))
    refine congrArg (V c main_v49) (funext fun a => Fin.ext ?_)
    match a with
    | ⟨0, _⟩ => show win1_2.index t (0 : Fin 2) * 128 + 1 * k.val = k.val; omega
    | ⟨1, _⟩ => show win1_2.index t (1 : Fin 2) * 128 + 1 * (y 1).val = win1_5.index t (1 : Fin 2) * 128 + 1 * (y 1).val; omega
  · show V c main_v51 (((cfg1.win 3).blk t).view.emb (ix2 k (y 1))) = V c main_v51 (ix2 k ((((cfg1.win 5).blk t).view.emb y) 1))
    refine congrArg (V c main_v51) (funext fun a => Fin.ext ?_)
    match a with
    | ⟨0, _⟩ => show win1_3.index t (0 : Fin 2) * 128 + 1 * k.val = k.val; omega
    | ⟨1, _⟩ => show win1_3.index t (1 : Fin 2) * 128 + 1 * (y 1).val = win1_5.index t (1 : Fin 2) * 128 + 1 * (y 1).val; omega
  · show V c main_arg9 (((cfg1.win 4).blk t).view.emb (ix1 (y 1))) = V c main_arg9 (ix1 ((((cfg1.win 5).blk t).view.emb y) 1))
    refine congrArg (V c main_arg9) (funext fun a => Fin.ext ?_)
    match a with
    | ⟨0, _⟩ => show win1_4.index t (0 : Fin 1) * 128 + 1 * (y 1).val = win1_5.index t (1 : Fin 2) * 128 + 1 * (y 1).val; omega

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v52).slice (win1_5.rect t)).set ↔ _
  rw [View.set_slice_whole, Rect.mem_set_unit]
  exact Iff.rfl

/-- Every entry of the output array is in the block of the point numbered by its row's block of 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := rfl
  have hN' : grid1.N = 10 := rfl
  refine ⟨⟨(i 0).val / 5000, by omega⟩, flush1_5 _, ?_⟩
  rw [mem_blk]
  obtain ⟨e00, e01, e10, e11, e20, e21, e30, e31, e40, e50, e51⟩ := idx_facts ⟨(i 0).val / 5000, by omega⟩
  have e50' : win1_5.index ⟨(i 0).val / 5000, by omega⟩ (0 : Fin 2) = (i 0).val / 5000 := e50
  intro a
  match a with
  | ⟨0, _⟩ =>
    show win1_5.index ⟨(i 0).val / 5000, _⟩ (0 : Fin 2) * 5000 ≤ (i 0).val
      ∧ (i 0).val < win1_5.index ⟨(i 0).val / 5000, _⟩ (0 : Fin 2) * 5000 + 5000
    omega
  | ⟨1, _⟩ =>
    show win1_5.index ⟨(i 0).val / 5000, _⟩ (1 : Fin 2) * 128 ≤ (i 1).val
      ∧ (i 1).val < win1_5.index ⟨(i 0).val / 5000, _⟩ (1 : Fin 2) * 128 + 128
    omega

/-- THE OUTPUT ARRAY after the region is `G` of the arrays the region finds. -/
theorem final (c : Dev nD) : (dat1 V c).arrAt 5 cfg1.N
    = G (V c main_arg1) (V c main_v45) (V c main_v49) (V c main_v51) (V c main_arg9) :=
  (dat1 V c).arrAt_eq_of_cover 5 _ (fun t _ => flushed_eq V c t) cover

end

end Cert.KernelIdeal.Combine

end
-- ==== Proof.EdgeFilter.lean ====
/-
  The edge-filter region as one function of the arrays it finds.

  The grid has 196 points; point t works on the padded edges 8192·t … 8192·t + 8191, with the transposed projection
  matrix and the bias whole.  For an edge p of the block and a column j its body forms
  ((Σ_k attr(p,k)·Wt(k,j)) + b(j)) · hdst(p,j): one matrix product into a zero accumulator, the bias row added to every
  row, and the product with the edge's scaled gathered row.  The blocks tile the 1605632 padded edges, so the message
  array ends as that expression of whole arrays at every entry.
-/
import proofs.«122496_j52561809768953_1_alg».proof.Proof.Gen.KernelIdeal.Frame
import proofs.«122496_j52561809768953_1_alg».proof.Proof.LibMatmulRowCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeFilter

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's matrix product: [8192,64] by [64,128], the left operand's columns against the right operand's rows. -/
abbrev D := dot_S8192x64_S64x128_S8192x128_1_0_0_1_n_n

theorem D_l0 (i : S8192x128.Idx) (q : D.contr.Idx) : (D.lhsIdx i q 0).val = (i 0).val := by
  unfold DotDims.lhsIdx
  rw [dif_neg (show ¬(0 : Fin S8192x64.rank) ∈ D.lhsBatch by decide), dif_pos (show (0 : Fin S8192x64.rank) ∈ D.lhsNonContracting by decide)]
  rfl
theorem D_l1 (i : S8192x128.Idx) (q : D.contr.Idx) : (D.lhsIdx i q 1).val = (q ⟨0, by decide⟩).val :=
  D.lhsIdx_val_of_single rfl i q
theorem D_r0 (i : S8192x128.Idx) (q : D.contr.Idx) : (D.rhsIdx i q 0).val = (q ⟨0, by decide⟩).val :=
  D.rhsIdx_val_of_single rfl i q
theorem D_r1 (i : S8192x128.Idx) (q : D.contr.Idx) : (D.rhsIdx i q 1).val = (i 1).val := by
  unfold DotDims.rhsIdx
  rw [dif_neg (show ¬(1 : Fin S64x128.rank) ∈ D.rhsBatch by decide), dif_pos (show (1 : Fin S64x128.rank) ∈ D.rhsNonContracting by decide)]
  rfl

/-- The body's value at edge p, column j of its block. -/
theorem pay_apply (a0 : Vec Ideal S8192x64 .bf16) (w0 : Vec Ideal S64x128 .bf16) (b0 : Vec Ideal S128 .f32)
    (h0 : Vec Ideal S8192x128 .bf16) (p : Fin 8192) (j : Fin 128) :
    k0_pay1 (F := Ideal) a0 w0 b0 h0 (ix2 p j)
      = ((∑ k : Fin 64, a0 (ix2 p k) * w0 (ix2 k j)) + b0 (ix1 j)) * h0 (ix2 p j) := by
  unfold k0_pay1
  rw [mulf_apply, addf_apply]
  rw [Cert.LibMatmul.matmul_rowcol D rfl rfl D_l0 D_l1 D_r0 D_r1]
  rw [broadcastTo_1b_ab_apply, shapeCast_a_1a_apply]
  simp only [extf_apply, shapeCast_self]

/-- The message array's entry (e, j) as a function of the whole arrays. -/
def G (A : S1605632x64.Idx → EReal) (H : S1605632x128.Idx → EReal) (Wt : S64x128.Idx → EReal) (b : S128.Idx → EReal) :
    S1605632x128.Idx → EReal :=
  fun i => ((∑ k : Fin 64, A (ix2 (i 0) k) * Wt (ix2 k (i 1))) + b (ix1 (i 1))) * H i

/-- `G` at the entry with coordinates (e, j). -/
theorem G_apply (A : S1605632x64.Idx → EReal) (H : S1605632x128.Idx → EReal) (Wt : S64x128.Idx → EReal) (b : S128.Idx → EReal)
    (e : Fin 1605632) (j : Fin 128) :
    G A H Wt b (ix2 e j) = ((∑ k : Fin 64, A (ix2 e k) * Wt (ix2 k j)) + b (ix1 j)) * H (ix2 e j) := rfl

/-! ## One grid point -/

/-- If the point's blocks read as rows of `A` and `H` and as the whole of `Wt` and `b` (the four hypotheses, at the
    block index `y` and the array index `i`), the body's value at `y` is `G` at `i`. -/
theorem point_eq (A : S1605632x64.Idx → EReal) (H : S1605632x128.Idx → EReal) (Wt : S64x128.Idx → EReal) (b : S128.Idx → EReal)
    (a0 : Vec Ideal S8192x64 .bf16) (w0 : Vec Ideal S64x128 .bf16) (b0 : Vec Ideal S128 .f32) (h0 : Vec Ideal S8192x128 .bf16)
    (y : S8192x128.Idx) (p : Fin 8192) (j : Fin 128) (hy : y = ix2 p j) (i : S1605632x128.Idx)
    (ha : ∀ k : Fin 64, a0 (ix2 p k) = A (ix2 (i 0) k))
    (hw : ∀ k : Fin 64, w0 (ix2 k j) = Wt (ix2 k (i 1)))
    (hb : b0 (ix1 j) = b (ix1 (i 1)))
    (hh : h0 (ix2 p j) = H i) :
    k0_pay1 (F := Ideal) a0 w0 b0 h0 y = G A H Wt b i := by
  subst hy
  rw [pay_apply]
  unfold G
  simp only [ha, hw, hb, hh]

theorem hz : (![0, 0] : Fin 2 → Nat) = fun _ => 0 := funext fun a => by fin_cases a <;> rfl
theorem hz1 : (![0] : Fin 1 → Nat) = fun _ => 0 := funext fun a => by fin_cases a <;> rfl

/-- The printed index maps, decided over the 196 grid points: the two edge-blocked inputs move with the output's edge
    block, which is the point's number; the projection and the bias stay at block 0. -/
theorem idx_facts : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = win0_4.index t (1 : Fin 2)
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b))

/-- WHAT POINT `t` WRITES BACK is block `t` of `G` of the arrays the region finds. -/
theorem flushed_eq (c : Dev nD) (t : Fin cfg0.N) :
    (dat0 V c).flushed 4 t = ((cfg0.win 4).blk t).view.read (Elt Ideal)
      (G (V c main_v38) (V c main_v39) (V c main_v41) (V c main_arg7)) := by
  show (cfg0.win 4).cut (grid0.coords t) ((dat0 V c).after 4 t) = _
  rw [after0_4]
  unfold out0_4
  rw [View.canon_unit_zero hz]
  simp only [View.ld_unit_zero (S := S8192x64) hz, View.ld_unit_zero (S := S8192x128) hz, View.ld_unit_zero (S := S64x128) hz, View.ld_unit_zero (S := S128) hz1]
  obtain ⟨e00, e01, e10, e11, e20, e21, e30, e40, e41⟩ := idx_facts t
  funext y
  refine point_eq (V c main_v38) (V c main_v39) (V c main_v41) (V c main_arg7)
    (iblk0 V c 0 t) (iblk0 V c 2 t) (iblk0 V c 3 t) (iblk0 V c 1 t) y (y 0) (y 1) (eq_ix2 y) (((cfg0.win 4).blk t).view.emb y)
    (fun k => ?_) (fun k => ?_) ?_ ?_
  · show V c main_v38 (((cfg0.win 0).blk t).view.emb (ix2 (y 0) k)) = V c main_v38 (ix2 ((((cfg0.win 4).blk t).view.emb y) 0) k)
    refine congrArg (V c main_v38) (funext fun a => Fin.ext ?_)
    match a with
    | ⟨0, _⟩ => show win0_0.index t (0 : Fin 2) * 8192 + 1 * (y 0).val = win0_4.index t (0 : Fin 2) * 8192 + 1 * (y 0).val; omega
    | ⟨1, _⟩ => show win0_0.index t (1 : Fin 2) * 64 + 1 * k.val = k.val; omega
  · show V c main_v41 (((cfg0.win 2).blk t).view.emb (ix2 k (y 1))) = V c main_v41 (ix2 k ((((cfg0.win 4).blk t).view.emb y) 1))
    refine congrArg (V c main_v41) (funext fun a => Fin.ext ?_)
    match a with
    | ⟨0, _⟩ => show win0_2.index t (0 : Fin 2) * 64 + 1 * k.val = k.val; omega
    | ⟨1, _⟩ => show win0_2.index t (1 : Fin 2) * 128 + 1 * (y 1).val = win0_4.index t (1 : Fin 2) * 128 + 1 * (y 1).val; omega
  · show V c main_arg7 (((cfg0.win 3).blk t).view.emb (ix1 (y 1))) = V c main_arg7 (ix1 ((((cfg0.win 4).blk t).view.emb y) 1))
    refine congrArg (V c main_arg7) (funext fun a => Fin.ext ?_)
    match a with
    | ⟨0, _⟩ => show win0_3.index t (0 : Fin 1) * 128 + 1 * (y 1).val = win0_4.index t (1 : Fin 2) * 128 + 1 * (y 1).val; omega
  · show V c main_v39 (((cfg0.win 1).blk t).view.emb (ix2 (y 0) (y 1))) = V c main_v39 (((cfg0.win 4).blk t).view.emb y)
    refine congrArg (V c main_v39) (funext fun a => Fin.ext ?_)
    match a with
    | ⟨0, _⟩ => show win0_1.index t (0 : Fin 2) * 8192 + 1 * (y 0).val = win0_4.index t (0 : Fin 2) * 8192 + 1 * (y 0).val; omega
    | ⟨1, _⟩ => show win0_1.index t (1 : Fin 2) * 128 + 1 * (y 1).val = win0_4.index t (1 : Fin 2) * 128 + 1 * (y 1).val; omega

/-- An index of the message array is in point `t`'s block iff each coordinate is in the block's range on its axis. -/
theorem mem_blk (t : Fin cfg0.N) (i : S1605632x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v42).slice (win0_4.rect t)).set ↔ _
  rw [View.set_slice_whole, Rect.mem_set_unit]
  exact Iff.rfl

/-- Every entry of the message array is in the block of the point numbered by its edge's block of 8192. -/
theorem cover (i : S1605632x128.Idx) :
    ∃ t : Fin cfg0.N, (cfg0.win 4).flush t = true ∧ i ∈ ((cfg0.win 4).blk t).view.set := by
  have hi0 : (i 0).val < 1605632 := (i 0).isLt
  have hi1 : (i 1).val < 128 := (i 1).isLt
  have hN : cfg0.N = 196 := rfl
  have hN' : grid0.N = 196 := rfl
  refine ⟨⟨(i 0).val / 8192, by omega⟩, flush0_4 _, ?_⟩
  rw [mem_blk]
  obtain ⟨e00, e01, e10, e11, e20, e21, e30, e40, e41⟩ := idx_facts ⟨(i 0).val / 8192, by omega⟩
  have e40' : win0_4.index ⟨(i 0).val / 8192, by omega⟩ (0 : Fin 2) = (i 0).val / 8192 := e40
  intro a
  match a with
  | ⟨0, _⟩ =>
    show win0_4.index ⟨(i 0).val / 8192, _⟩ (0 : Fin 2) * 8192 ≤ (i 0).val
      ∧ (i 0).val < win0_4.index ⟨(i 0).val / 8192, _⟩ (0 : Fin 2) * 8192 + 8192
    omega
  | ⟨1, _⟩ =>
    show win0_4.index ⟨(i 0).val / 8192, _⟩ (1 : Fin 2) * 128 ≤ (i 1).val
      ∧ (i 1).val < win0_4.index ⟨(i 0).val / 8192, _⟩ (1 : Fin 2) * 128 + 128
    omega

/-- THE MESSAGE ARRAY after the region is `G` of the arrays the region finds. -/
theorem final (c : Dev nD) : (dat0 V c).arrAt 4 cfg0.N
    = G (V c main_v38) (V c main_v39) (V c main_v41) (V c main_arg7) :=
  (dat0 V c).arrAt_eq_of_cover 4 _ (fun t _ => flushed_eq V c t) cover

end

end Cert.KernelIdeal.EdgeFilter

end
-- ==== Proof.LibPadRead.lean ====
/-
  `stablehlo.pad` read at an index.

  The padded array of shape `t` is the operand `x` (shape `s`) with `lo a` copies of the padding value before,
  `hi a` after and `interior a` between consecutive elements on every axis `a`. Read at an index `j`:

  * if on EVERY axis the coordinate of `j` is `lo a + (i a) · (interior a + 1)` for an operand index `i`, the
    padded array holds the operand's element `x i` (`pad_apply_inside`);
  * if on SOME axis the coordinate of `j` lies before `lo a`, or at or beyond the operand's last element
    (`s.size a ≤ (j a − lo a) / (interior a + 1)`), it holds the padding value, the one element of the
    rank-zero operand `v` (`pad_apply_outside`).

  With no interior padding the two cases are `j a = lo a + i a` and `j a < lo a ∨ lo a + s.size a ≤ j a`
  (`pad_apply_inside_plain`, `pad_apply_outside_plain`).
-/
import Idealize.ShloMosaic.PureOps.ShapeOps

namespace Cert.LibPadRead

open Idealize.ShloMosaic

variable {s : Shape} {α : Type}

/-- A padded array read where every coordinate is `lo + i · (interior + 1)` is the operand at `i`. -/
theorem pad_apply_inside (t : Shape) (lo hi interior : Fin s.rank → Nat) (x : s.Idx → α) {u : Shape} (v : u.Idx → α)
    (h : s.Pads lo hi interior t) (hu : 0 < u.numel) (j : t.Idx) (i : s.Idx)
    (hji : ∀ a : Fin s.rank, (j (a.cast h.1)).val = lo a + (i a).val * (interior a + 1)) :
    pad t lo hi interior x v h hu j = x i := by
  have hq : ∀ a : Fin s.rank, ((j (a.cast h.1)).val - lo a) / (interior a + 1) = (i a).val := fun a => by
    rw [hji a, Nat.add_sub_cancel_left, Nat.mul_div_cancel _ (Nat.succ_pos _)]
  have hin : ∀ a : Fin s.rank, lo a ≤ (j (a.cast h.1)).val ∧ ((j (a.cast h.1)).val - lo a) % (interior a + 1) = 0
      ∧ ((j (a.cast h.1)).val - lo a) / (interior a + 1) < s.size a := fun a =>
    ⟨by rw [hji a]; exact Nat.le_add_right _ _,
     by rw [hji a, Nat.add_sub_cancel_left]; exact Nat.mul_mod_left _ _,
     by rw [hq a]; exact (i a).isLt⟩
  unfold pad
  rw [dif_pos hin]
  exact congrArg x (funext fun a => Fin.ext (hq a))

/-- A padded array read where some coordinate falls before the operand's first element or past its last is the padding value. -/
theorem pad_apply_outside (t : Shape) (lo hi interior : Fin s.rank → Nat) (x : s.Idx → α) {u : Shape} (v : u.Idx → α)
    (h : s.Pads lo hi interior t) (hu : 0 < u.numel) (j : t.Idx) (a : Fin s.rank)
    (ha : (j (a.cast h.1)).val < lo a ∨ s.size a ≤ ((j (a.cast h.1)).val - lo a) / (interior a + 1)) :
    pad t lo hi interior x v h hu j = v (Shape.Idx.first hu) := by
  unfold pad
  rw [dif_neg]
  intro hin
  rcases ha with ha | ha
  · exact absurd (hin a).1 (Nat.not_le.mpr ha)
  · exact absurd (hin a).2.2 (Nat.not_lt.mpr ha)

/-- No interior padding: the padded array at `lo + i` is the operand at `i`. -/
theorem pad_apply_inside_plain (t : Shape) (lo hi interior : Fin s.rank → Nat) (x : s.Idx → α) {u : Shape} (v : u.Idx → α)
    (h : s.Pads lo hi interior t) (hu : 0 < u.numel) (h0 : ∀ a, interior a = 0) (j : t.Idx) (i : s.Idx)
    (hji : ∀ a : Fin s.rank, (j (a.cast h.1)).val = lo a + (i a).val) :
    pad t lo hi interior x v h hu j = x i :=
  pad_apply_inside t lo hi interior x v h hu j i fun a => by rw [hji a, h0 a, Nat.zero_add, Nat.mul_one]

/-- No interior padding: the padded array before `lo` or from `lo + size` on, on some axis, is the padding value. -/
theorem pad_apply_outside_plain (t : Shape) (lo hi interior : Fin s.rank → Nat) (x : s.Idx → α) {u : Shape} (v : u.Idx → α)
    (h : s.Pads lo hi interior t) (hu : 0 < u.numel) (h0 : ∀ a, interior a = 0) (j : t.Idx) (a : Fin s.rank)
    (ha : (j (a.cast h.1)).val < lo a ∨ lo a + s.size a ≤ (j (a.cast h.1)).val) :
    pad t lo hi interior x v h hu j = v (Shape.Idx.first hu) :=
  pad_apply_outside t lo hi interior x v h hu j a (by
    rw [h0 a, Nat.zero_add, Nat.div_one]
    rcases ha with ha | ha
    · exact Or.inl ha
    · exact Or.inr (by omega))

end Cert.LibPadRead
-- ==== Proof.LibRowGatherScatter.lean ====
/-
  Whole-row gathers and whole-row accumulating scatters of a rank-2 array.

  A table of N rows of D entries is read at E row numbers (a gather: result row e is the table's row at the e-th row
  number, read as a signed integer and clamped into [0, N - 1]), and E rows of D entries are added into a table of N
  rows at E row numbers (an accumulating scatter: table row i receives the sum of the update rows whose row number,
  read as a signed integer and not clamped, is i; a row number outside [0, N) contributes nothing).  Both are read
  here at one entry (row, column).  A last statement says that scattering ones into zeros counts: every entry of the
  result is a natural number.
-/
import Mathlib.Tactic
import Idealize.ShloMosaic.PureOps.Ideal
import Idealize.ShloMosaic.Lib.ValueIdx

noncomputable section

open scoped BigOperators

namespace Cert.Lib.Rows

open Idealize.ShloMosaic Idealize.ShloMosaic.ValueIdx

/-! ## A gather of whole rows -/

section Gather
variable {α : Type}

/-- The dimension numbers of a gather of whole rows: operand [N, D], start indices [E, 1] (one row number per result
    row, on the index vector's axis 1), result [E, D]; the row axis 0 is collapsed and indexed by the start index, the
    column axis 1 is the one offset axis, the slice is one whole row [1, D]. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The gather of rows read at entry (e, k): the operand's entry in column k of the row whose number is the e-th
    start index, read as a signed integer and clamped into [0, N - 1]. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e k) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e k) idx 1 + (rowGatherDims N D E wf).batchCoord (ix2 e k) 1
      + (rowGatherDims N D E wf).offCoord (ix2 e k) 1 = _
    rw [GatherDims.batchCoord_eq_zero _ _ _ List.not_mem_nil]
    unfold GatherDims.start
    have h1 : (1 : Fin 2) ∉ ([0] : List (Fin 2)) := by decide
    rw [dif_neg (show (1 : Fin 2) ∉ (rowGatherDims N D E wf).startIndexMap from h1)]
    simp only [Nat.add_zero, Nat.zero_add]
    unfold GatherDims.offCoord
    rw [dif_pos (show (1 : Fin 2) ∈ (rowGatherDims N D E wf).sKept from
      (GatherDims.mem_sKept _ _).mpr ⟨h1, List.not_mem_nil⟩)]
    rfl

end Gather

/-! ## An accumulating scatter of whole rows -/

section Scatter

/-- The dimension numbers of a scatter of whole rows: operand [N, D], scatter indices [E, 1] (one row number per
    update row, on the index vector's axis 1), updates [E, D]; the operand's row axis 0 is the inserted window axis
    the scatter index names, the updates' column axis 1 is the one window axis and goes to the operand's columns. -/
abbrev rowScatterDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis the window of update entry (e, k') starts at the e-th scatter index, read as a signed integer. -/
theorem rowScatter_start_row {N D E w : Nat} (wf : ScatterDims.WF ⟨2, ![N, D]⟩ ⟨2, ![E, 1]⟩ ⟨2, ![E, D]⟩ [1] [0] [0] 1) (idx : IVec ⟨2, ![E, 1]⟩ w) (e : Fin E) (k' : Fin D) :
    (rowScatterDims N D E wf).start (ix2 e k') idx (0 : Fin 2) = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e k')
      ⟨List.idxOf (0 : Fin 2) (rowScatterDims N D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index names, the window starts at 0. -/
theorem rowScatter_start_col {N D E w : Nat} (wf : ScatterDims.WF ⟨2, ![N, D]⟩ ⟨2, ![E, 1]⟩ ⟨2, ![E, D]⟩ [1] [0] [0] 1) (idx : IVec ⟨2, ![E, 1]⟩ w) (e : Fin E) (k' : Fin D) :
    (rowScatterDims N D E wf).start (ix2 e k') idx (1 : Fin 2) = 0 := by
  have h1 : (1 : Fin 2) ∉ ([0] : List (Fin 2)) := by decide
  unfold ScatterDims.start
  rw [dif_neg (show (1 : Fin 2) ∉ (rowScatterDims N D E wf).scatterDimsToOperandDims from h1)]

/-- On the row axis, an inserted axis, the window coordinate of an update entry is 0. -/
theorem rowScatter_window_row {N D E : Nat} (wf : ScatterDims.WF ⟨2, ![N, D]⟩ ⟨2, ![E, 1]⟩ ⟨2, ![E, D]⟩ [1] [0] [0] 1) (e : Fin E) (k' : Fin D) :
    (rowScatterDims N D E wf).window (ix2 e k') (0 : Fin 2) = 0 := by
  have h0 : (0 : Fin 2) ∉ (List.finRange 2).filter (fun a : Fin 2 => decide (a ∉ ([0] : List (Fin 2)))) := by decide
  unfold ScatterDims.window
  rw [dif_neg (show (0 : Fin 2) ∉ (rowScatterDims N D E wf).sKept from h0)]

/-- On the column axis the window coordinate of update entry (e, k') is its column k'. -/
theorem rowScatter_window_col {N D E : Nat} (wf : ScatterDims.WF ⟨2, ![N, D]⟩ ⟨2, ![E, 1]⟩ ⟨2, ![E, D]⟩ [1] [0] [0] 1) (e : Fin E) (k' : Fin D) :
    (rowScatterDims N D E wf).window (ix2 e k') (1 : Fin 2) = k'.val := by
  have h1 : (1 : Fin 2) ∈ (List.finRange 2).filter (fun a : Fin 2 => decide (a ∉ ([0] : List (Fin 2)))) := by decide
  unfold ScatterDims.window
  rw [dif_pos (show (1 : Fin 2) ∈ (rowScatterDims N D E wf).sKept from h1)]
  rfl

/-- WHERE AN UPDATE ENTRY LANDS: update entry (e, k') lands on operand entry (i, k) exactly when the e-th scatter
    index, read as a signed integer, is i and the columns agree; a scatter index outside [0, N) lands nowhere. -/
theorem rowScatter_resultIdx?_eq_some_iff {N D E w : Nat} (wf : ScatterDims.WF ⟨2, ![N, D]⟩ ⟨2, ![E, 1]⟩ ⟨2, ![E, D]⟩ [1] [0] [0] 1) (idx : IVec ⟨2, ![E, 1]⟩ w)
    (e : Fin E) (k' k : Fin D) (i : Fin N) :
    (rowScatterDims N D E wf).resultIdx? (ix2 e k') idx = some (ix2 i k)
      ↔ (idx (ix2 e (0 : Fin 1))).toInt = (i.val : ℤ) ∧ k' = k := by
  have hs0 := rowScatter_start_row wf idx e k'
  have hs1 := rowScatter_start_col wf idx e k'
  have hw0 := rowScatter_window_row wf e k'
  have hw1 := rowScatter_window_col wf e k'
  have hi : i.val < N := i.isLt
  have hk' : k'.val < D := k'.isLt
  unfold ScatterDims.resultIdx?
  split
  · rename_i h
    rw [Option.some.injEq]
    constructor
    · intro hf
      have h0 : ((rowScatterDims N D E wf).start (ix2 e k') idx (0 : Fin 2)
          + ((rowScatterDims N D E wf).window (ix2 e k') (0 : Fin 2) : ℤ)).toNat = i.val :=
        congrArg (fun f => (f (0 : Fin 2)).val) hf
      have h1 : ((rowScatterDims N D E wf).start (ix2 e k') idx (1 : Fin 2)
          + ((rowScatterDims N D E wf).window (ix2 e k') (1 : Fin 2) : ℤ)).toNat = k.val :=
        congrArg (fun f => (f (1 : Fin 2)).val) hf
      have hr := (h (0 : Fin 2)).1
      rw [hs0, hw0] at h0 hr
      rw [hs1, hw1] at h1
      refine ⟨by omega, Fin.ext (by omega)⟩
    · rintro ⟨hz, rfl⟩
      funext a; refine Fin.ext ?_
      match a with
      | ⟨0, _⟩ =>
        show ((rowScatterDims N D E wf).start (ix2 e k') idx (0 : Fin 2)
          + ((rowScatterDims N D E wf).window (ix2 e k') (0 : Fin 2) : ℤ)).toNat = i.val
        rw [hs0, hw0]; omega
      | ⟨1, _⟩ =>
        show ((rowScatterDims N D E wf).start (ix2 e k') idx (1 : Fin 2)
          + ((rowScatterDims N D E wf).window (ix2 e k') (1 : Fin 2) : ℤ)).toNat = k'.val
        rw [hs1, hw1]; omega
  · rename_i h
    constructor
    · intro hf; exact absurd hf (by simp)
    · rintro ⟨hz, rfl⟩
      exfalso; apply h
      intro a
      match a with
      | ⟨0, _⟩ =>
        show 0 ≤ (rowScatterDims N D E wf).start (ix2 e k') idx (0 : Fin 2)
            + ((rowScatterDims N D E wf).window (ix2 e k') (0 : Fin 2) : ℤ)
          ∧ (rowScatterDims N D E wf).start (ix2 e k') idx (0 : Fin 2)
            + ((rowScatterDims N D E wf).window (ix2 e k') (0 : Fin 2) : ℤ) < (N : ℤ)
        rw [hs0, hw0]; omega
      | ⟨1, _⟩ =>
        show 0 ≤ (rowScatterDims N D E wf).start (ix2 e k') idx (1 : Fin 2)
            + ((rowScatterDims N D E wf).window (ix2 e k') (1 : Fin 2) : ℤ)
          ∧ (rowScatterDims N D E wf).start (ix2 e k') idx (1 : Fin 2)
            + ((rowScatterDims N D E wf).window (ix2 e k') (1 : Fin 2) : ℤ) < (D : ℤ)
        rw [hs1, hw1]; omega

/-- THE ACCUMULATING SCATTER OF ROWS READ AT ENTRY (i, k): the operand's entry plus the sum, over the update rows e
    whose scatter index read as a signed integer is i, of the update's entry in column k. -/
theorem scatterAdd_rows_apply {N D E w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (i : Fin N) (k : Fin D) :
    Ideal.hostScatterAdd (rowScatterDims N D E wf) x idx upd (ix2 i k)
      = x (ix2 i k) + ∑ e ∈ Finset.univ.filter (fun e : Fin E => (idx (ix2 e (0 : Fin 1))).toInt = (i.val : ℤ)),
          upd (ix2 e k) := by
  unfold Ideal.hostScatterAdd
  congr 1
  conv_lhs => rw [Finset.sum_filter, sum_idx2]
  conv_rhs => rw [Finset.sum_filter]
  refine Finset.sum_congr rfl fun e _ => ?_
  by_cases hz : (idx (ix2 e (0 : Fin 1))).toInt = (i.val : ℤ)
  · rw [if_pos hz]
    have hb : ∀ b : Fin D,
        (if (rowScatterDims N D E wf).resultIdx? (ix2 e b) idx = some (ix2 i k) then upd (ix2 e b) else 0)
          = if b = k then upd (ix2 e b) else 0 := by
      intro b
      by_cases hbk : b = k
      · rw [if_pos hbk, if_pos ((rowScatter_resultIdx?_eq_some_iff wf idx e b k i).mpr ⟨hz, hbk⟩)]
      · rw [if_neg hbk, if_neg (fun h => hbk ((rowScatter_resultIdx?_eq_some_iff wf idx e b k i).mp h).2)]
    rw [Finset.sum_congr rfl (fun b _ => hb b), Finset.sum_ite_eq', if_pos (Finset.mem_univ _)]
  · rw [if_neg hz]
    exact Finset.sum_eq_zero fun b _ =>
      if_neg (fun h => hz ((rowScatter_resultIdx?_eq_some_iff wf idx e b k i).mp h).1)

end Scatter

/-! ## Scattering ones into zeros counts -/

/-- For any accumulating scatter, of any shapes and dimension numbers: ones scattered into zeros give, at every entry,
    the number of update entries that land there, a natural number. -/
theorem scatterAdd_count {s si su : Shape} (d : ScatterDims s si su) {w : Nat} (idx : IVec si w) (i : s.Idx) :
    ∃ n : ℕ, Ideal.hostScatterAdd d (fun _ => (0 : EReal)) idx (fun _ => (1 : EReal)) i = ((n : ℝ) : EReal) := by
  have h : ∀ S : Finset su.Idx, (0 : EReal) + ∑ _j ∈ S, (1 : EReal) = ((S.card : ℝ) : EReal) := by
    intro S
    rw [Finset.sum_const, nsmul_one, zero_add]
    rfl
  exact ⟨_, h _⟩

end Cert.Lib.Rows

end
-- ==== Proof.LibSumCut.lean ====
/-
  Two facts about sums over an initial segment of the naturals, for arrays that are padded or cut.

  * A sum over `Fin n` whose terms vanish from position `m` on (an array padded with zeros from row `m`) is the sum
    over the first `m` positions (`sum_eq_sum_castLE`).
  * A sum over `Fin N` with `N = a + b` is the sum over its first `a` positions plus the sum over its last `b`
    (a contraction over a joined axis is the sum of the contractions over the two pieces: `sum_split`).

  Both hold in any additive commutative monoid, so on the extended reals too, infinities included.
-/
import Mathlib.Tactic

open scoped BigOperators

namespace Cert.LibSumCut

/-- A sum over `Fin n` whose terms vanish from position `m` on is the sum over the first `m` positions. -/
theorem sum_eq_sum_castLE {M : Type*} [AddCommMonoid M] {m n : ℕ} (h : m ≤ n) (g : Fin n → M)
    (hz : ∀ i : Fin n, m ≤ i.val → g i = 0) : ∑ i : Fin n, g i = ∑ i : Fin m, g (Fin.castLE h i) := by
  have e : ∑ i : Fin m, g (Fin.castLE h i) = ∑ x ∈ Finset.univ.map (Fin.castLEEmb h), g x := by
    rw [Finset.sum_map]; rfl
  rw [e]
  symm
  refine Finset.sum_subset (Finset.subset_univ _) fun i _ hi => hz i ?_
  by_contra hlt
  exact hi (Finset.mem_map.mpr ⟨⟨i.val, Nat.lt_of_not_le hlt⟩, Finset.mem_univ _, Fin.ext rfl⟩)

/-- A sum over `Fin (a + b)` is the sum over its first `a` positions plus the sum over its last `b`. -/
theorem sum_split {M : Type*} [AddCommMonoid M] {a b N : ℕ} (hN : N = a + b) (f : Fin N → M) :
    ∑ k : Fin N, f k = (∑ k : Fin a, f ⟨k.val, by omega⟩) + ∑ k : Fin b, f ⟨a + k.val, by omega⟩ := by
  subst hN
  rw [Fin.sum_univ_add]
  rfl

end Cert.LibSumCut
-- ==== Proof.EdgeAlgebra.lean ====
/-
  The mathematics of the edge-message layer, over the extended reals.

  Every edge e carries a message row: the filter row (edge features times the projection's rows, plus a bias) times the
  edge's scale times the embedding row gathered for it.  A node's aggregate row is the sum of the message rows of the
  edges that start at it, and the output row of node n is the row [x(n), agg(n)] of width 256 against the rows of the
  combining matrix, plus a bias.

  Two arrangements of this computation are compared.  The first works on the 1600000 edges as they are and contracts
  the joined row of width 256 at once.  The second pads the edge list to 1605632 edges, the added edges carrying a zero
  gathered row (so a zero message, whatever their other data) and the start node 0; multiplies the gathered row by the
  scale before the filter row instead of after; and contracts the two halves of width 128 separately.  They agree:
  multiplication of extended reals is commutative and associative, anything times zero is zero (so the added edges add
  nothing to any node), and a finite sum may be cut in two.  No finiteness of the data is used.
-/
import Mathlib.Tactic
import Idealize.ShloMosaic.Lib.ValueIdx
import proofs.«122496_j52561809768953_1_alg».proof.Proof.LibSumCut

noncomputable section

open scoped BigOperators

namespace Cert.EdgeConv

open Idealize.ShloMosaic Idealize.ShloMosaic.ValueIdx Cert.LibSumCut

/-! ## The two arrangements -/

section
variable (x : (⟨2, ![50000, 128]⟩ : Shape).Idx → EReal) (W : (⟨2, ![128, 256]⟩ : Shape).Idx → EReal)
  (cb : (⟨1, ![128]⟩ : Shape).Idx → EReal)
  (A : (⟨2, ![1600000, 64]⟩ : Shape).Idx → EReal) (PW : (⟨2, ![128, 64]⟩ : Shape).Idx → EReal)
  (pb : (⟨1, ![128]⟩ : Shape).Idx → EReal)
  (sc : (⟨1, ![1600000]⟩ : Shape).Idx → EReal) (nd : (⟨2, ![1600000, 128]⟩ : Shape).Idx → EReal)
  (src : Fin 1600000 → ℤ)
  (Ap : (⟨2, ![1605632, 64]⟩ : Shape).Idx → EReal) (Hp : (⟨2, ![1605632, 128]⟩ : Shape).Idx → EReal)
  (srcp : Fin 1605632 → ℤ)

/-- Edge e's message at column h: (filter row + bias) · scale · gathered row. -/
def msgR (e : Fin 1600000) (h : Fin 128) : EReal :=
  (((∑ k : Fin 64, A (ix2 e k) * PW (ix2 h k)) + pb (ix1 h)) * sc (ix1 e)) * nd (ix2 e h)

/-- Node n's aggregate at column h: the messages of the edges whose start node is n, summed from zero. -/
def aggR (n : Fin 50000) (h : Fin 128) : EReal :=
  0 + ∑ e ∈ Finset.univ.filter (fun e : Fin 1600000 => src e = (n.val : ℤ)), msgR A PW pb sc nd e h

/-- The output at (n, j): the joined row [x(n), agg(n)] against row j of the combining matrix, plus the bias. -/
def outR (n : Fin 50000) (j : Fin 128) : EReal :=
  (∑ k : Fin 256, (if hk : k.val < 128 then x (ix2 n ⟨k.val, hk⟩)
      else aggR A PW pb sc nd src n ⟨k.val - 128, by omega⟩) * W (ix2 j k)) + cb (ix1 j)

/-- Padded edge e's message at column h: (filter row + bias) · (scaled gathered row). -/
def msgK (e : Fin 1605632) (h : Fin 128) : EReal :=
  ((∑ k : Fin 64, Ap (ix2 e k) * PW (ix2 h k)) + pb (ix1 h)) * Hp (ix2 e h)

/-- Node n's aggregate over the padded edge list. -/
def aggK (n : Fin 50000) (h : Fin 128) : EReal :=
  0 + ∑ e ∈ Finset.univ.filter (fun e : Fin 1605632 => srcp e = (n.val : ℤ)), msgK PW pb Ap Hp e h

/-- The output at (n, j) with the two halves of the joined row contracted separately. -/
def outK (n : Fin 50000) (j : Fin 128) : EReal :=
  ((∑ k : Fin 128, x (ix2 n k) * W (ix2 j ⟨k.val, by omega⟩))
    + ∑ k : Fin 128, aggK PW pb Ap Hp srcp n k * W (ix2 j ⟨128 + k.val, by omega⟩)) + cb (ix1 j)

variable {A PW pb sc nd src Ap Hp srcp}

/-- The aggregate over the padded edge list is the aggregate over the edges: an added edge's message is a product
    with zero, and on an edge the two messages differ by the order of three factors. -/
theorem aggK_eq_aggR
    (hA : ∀ (e : Fin 1600000) (k : Fin 64), Ap (ix2 (Fin.castLE (by norm_num) e) k) = A (ix2 e k))
    (hH : ∀ (e : Fin 1600000) (h : Fin 128), Hp (ix2 (Fin.castLE (by norm_num) e) h) = nd (ix2 e h) * sc (ix1 e))
    (hH0 : ∀ (e : Fin 1605632) (h : Fin 128), 1600000 ≤ e.val → Hp (ix2 e h) = 0)
    (hs : ∀ e : Fin 1600000, srcp (Fin.castLE (by norm_num) e) = src e)
    (n : Fin 50000) (h : Fin 128) : aggK PW pb Ap Hp srcp n h = aggR A PW pb sc nd src n h := by
  unfold aggK aggR
  refine congrArg (fun s : EReal => 0 + s) ?_
  rw [Finset.sum_filter, Finset.sum_filter]
  rw [sum_eq_sum_castLE (by norm_num : 1600000 ≤ 1605632) _ (fun i hi => by
    unfold msgK; rw [hH0 i h hi, mul_zero]; exact ite_self 0)]
  refine Finset.sum_congr rfl fun e _ => ?_
  rw [hs e]
  refine if_congr Iff.rfl ?_ rfl
  unfold msgK msgR
  rw [hH e h]
  simp only [hA]
  rw [mul_assoc, mul_comm (sc (ix1 e)) (nd (ix2 e h))]

/-- THE TWO ARRANGEMENTS AGREE at every entry. -/
theorem outK_eq_outR
    (hA : ∀ (e : Fin 1600000) (k : Fin 64), Ap (ix2 (Fin.castLE (by norm_num) e) k) = A (ix2 e k))
    (hH : ∀ (e : Fin 1600000) (h : Fin 128), Hp (ix2 (Fin.castLE (by norm_num) e) h) = nd (ix2 e h) * sc (ix1 e))
    (hH0 : ∀ (e : Fin 1605632) (h : Fin 128), 1600000 ≤ e.val → Hp (ix2 e h) = 0)
    (hs : ∀ e : Fin 1600000, srcp (Fin.castLE (by norm_num) e) = src e)
    (n : Fin 50000) (j : Fin 128) :
    outK x W cb PW pb Ap Hp srcp n j = outR x W cb A PW pb sc nd src n j := by
  unfold outK outR
  rw [sum_split (a := 128) (b := 128) (by norm_num : 256 = 128 + 128)]
  refine congrArg (fun s : EReal => s + cb (ix1 j)) ?_
  refine congrArg₂ (fun s u : EReal => s + u) (Finset.sum_congr rfl fun k _ => ?_) (Finset.sum_congr rfl fun k _ => ?_)
  · rw [dif_pos (show ((⟨k.val, by omega⟩ : Fin 256)).val < 128 from k.isLt)]
  · rw [dif_neg (show ¬ ((⟨128 + k.val, by omega⟩ : Fin 256)).val < 128 from by simp), aggK_eq_aggR hA hH hH0 hs]
    refine congrArg (fun q : Fin 128 => aggR A PW pb sc nd src n q * W (ix2 j ⟨128 + k.val, by omega⟩)) ?_
    exact Fin.ext (by simp)

end

end Cert.EdgeConv

end
-- ==== Proof.RefValue.lean ====
/-
  The reference's result at an entry.

  The reference is one straight line of host operations.  Its result at (n, j) is read here operation by operation:
  the last sum and bias, the contraction of the joined row [x(n), agg(n)] of width 256 with row j of the combining
  matrix, the joined row itself (its first 128 columns are x(n), its last 128 the aggregate), the aggregate as an
  accumulating scatter of the message rows along the edges' start nodes, and a message entry as
  (filter row + bias) · scale · gathered row.  The two gathers (embedding row of a node's type, then of an edge's end
  node) and the scale vector are kept as the generated stages: the kernel computes them by the same operations.
-/
import proofs.«122496_j52561809768953_1_alg».proof.Proof.Gen.ReferenceIdeal.Read
import proofs.«122496_j52561809768953_1_alg».proof.Proof.LibRowGatherScatter
import proofs.«122496_j52561809768953_1_alg».proof.Proof.EdgeAlgebra
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx
open scoped BigOperators

variable (x0 : (⟨S50000, .i32⟩ : BufTy).Contents (Elt Ideal)) (x1 : (⟨S50000x128, .f32⟩ : BufTy).Contents (Elt Ideal))
  (x2 : (⟨S2x1600000, .i32⟩ : BufTy).Contents (Elt Ideal)) (x3 : (⟨S1600000, .f32⟩ : BufTy).Contents (Elt Ideal))
  (x4 : (⟨S1600000x64, .f32⟩ : BufTy).Contents (Elt Ideal)) (x5 : (⟨S100x128, .f32⟩ : BufTy).Contents (Elt Ideal))
  (x6 : (⟨S128x64, .f32⟩ : BufTy).Contents (Elt Ideal)) (x7 : (⟨S128, .f32⟩ : BufTy).Contents (Elt Ideal))
  (x8 : (⟨S128x256, .f32⟩ : BufTy).Contents (Elt Ideal)) (x9 : (⟨S128, .f32⟩ : BufTy).Contents (Elt Ideal))

/-- An edge's start node: its entry of the first row of the edge list, read as a signed integer. -/
def src : Fin 1600000 → ℤ := fun e => (val_main_v42 (F := Ideal) x2 (ix2 e (0 : Fin 1))).toInt

/-- A MESSAGE ENTRY: (Σ_k attr(e,k)·P(h,k) + b(h)) · scale(e) · gathered(e,h). -/
theorem msg_apply (e : Fin 1600000) (h : Fin 128) :
    val_main_v40 (F := Ideal) x0 x2 x3 x4 x5 x6 x7 (ix2 e h)
      = Cert.EdgeConv.msgR x4 x6 x7 (val_main_v22 (F := Ideal) x2 x3) (val_main_v39 (F := Ideal) x0 x2 x5) e h := by
  have i1 : ∀ k : Fin 64, lidx_main_v18 (ix2 e h) k = ix2 e k := fun k => funext fun a => Fin.ext (by
    match a with | ⟨0, _⟩ => rfl | ⟨1, _⟩ => rfl)
  have i2 : ∀ k : Fin 64, idx_main_v17 (ridx_main_v18 (ix2 e h) k) = ix2 h k := fun k => funext fun a => Fin.ext (by
    match a with | ⟨0, _⟩ => rfl | ⟨1, _⟩ => rfl)
  have i3 : idx_main_v19 (idx_main_v20 (ix2 e h)) = ix1 h := funext fun a => Fin.ext (by match a with | ⟨0, _⟩ => rfl)
  have i4 : idx_main_v23 (idx_main_v24 (ix2 e h)) = ix1 e := funext fun a => Fin.ext (by match a with | ⟨0, _⟩ => rfl)
  rw [val_main_v40_apply, val_main_v25_apply, val_main_v21_apply, val_main_v18_apply, val_main_v20_apply,
    val_main_v19_apply, val_main_v24_apply, val_main_v23_apply]
  unfold Cert.EdgeConv.msgR
  simp only [val_main_v17_apply, i1, i2, i3, i4, Ideal.mulf_def, Ideal.addf_def]

/-- The reference's scatter is the accumulating scatter of whole rows into a [50000, 128] table along [1600000, 1]
    row numbers. -/
theorem scatter_wf : ScatterDims.WF ⟨2, ![50000, 128]⟩ ⟨2, ![1600000, 1]⟩ ⟨2, ![1600000, 128]⟩ [1] [0] [0] 1 :=
  scatter_S50000x128_S1600000x1_S1600000x128_1_0_0_1.wf
theorem scatter_rec_eq : scatter_S50000x128_S1600000x1_S1600000x128_1_0_0_1
    = Cert.Lib.Rows.rowScatterDims 50000 128 1600000 scatter_wf := rfl

/-- The aggregate stage is that scatter of the message stage into zeros along the start nodes. -/
theorem agg_stage_eq : val_main_v43 (F := Ideal) x0 x2 x3 x4 x5 x6 x7
    = Ideal.hostScatterAdd scatter_S50000x128_S1600000x1_S1600000x128_1_0_0_1 (val_main_v41 (F := Ideal))
        (val_main_v42 (F := Ideal) x2) (val_main_v40 (F := Ideal) x0 x2 x3 x4 x5 x6 x7) := rfl

/-- The zero table read at an entry. -/
theorem zeros_apply (i : S50000x128.Idx) : val_main_v41 (F := Ideal) i = 0 := by
  rw [val_main_v41_apply, val_main_cst_6_apply]
  exact Ideal.ofBits_zero_f32

set_option maxHeartbeats 400000 in
/-- AN AGGREGATE ENTRY: from zero, the sum of the message entries of the edges that start at node n. -/
theorem agg_apply (n : Fin 50000) (h : Fin 128) :
    val_main_v43 (F := Ideal) x0 x2 x3 x4 x5 x6 x7 (ix2 n h)
      = Cert.EdgeConv.aggR x4 x6 x7 (val_main_v22 (F := Ideal) x2 x3) (val_main_v39 (F := Ideal) x0 x2 x5) (src x2) n h := by
  rw [agg_stage_eq, scatter_rec_eq, Cert.Lib.Rows.scatterAdd_rows_apply, zeros_apply]
  unfold Cert.EdgeConv.aggR src
  refine congrArg (fun s : EReal => 0 + s) ?_
  refine Finset.sum_congr ?_ fun e _ => msg_apply x0 x2 x3 x4 x5 x6 x7 e h
  rfl

/-- THE RESULT AT (n, j): the joined row against row j of the combining matrix, plus the bias. -/
theorem out_apply (n : Fin 50000) (j : Fin 128) :
    val_main_v49 (F := Ideal) x0 x1 x2 x3 x4 x5 x6 x7 x8 x9 (ix2 n j)
      = Cert.EdgeConv.outR x1 x8 x9 x4 x6 x7 (val_main_v22 (F := Ideal) x2 x3) (val_main_v39 (F := Ideal) x0 x2 x5) (src x2) n j := by
  have i5 : idx_main_v47 (idx_main_v48 (ix2 n j)) = ix1 j := funext fun a => Fin.ext (by match a with | ⟨0, _⟩ => rfl)
  rw [val_main_v49_apply, val_main_v46_apply, val_main_v48_apply, val_main_v47_apply, i5, Ideal.addf_def]
  unfold Cert.EdgeConv.outR
  refine congrArg (fun s : EReal => s + x9 (ix1 j)) (Finset.sum_congr rfl fun k _ => ?_)
  have i6 : idx_main_v45 (ridx_main_v46 (ix2 n j) k) = ix2 j k := funext fun a => Fin.ext (by
    match a with | ⟨0, _⟩ => rfl | ⟨1, _⟩ => rfl)
  rw [val_main_v45_apply, i6]
  refine congrArg (fun s : EReal => s * x8 (ix2 j k)) ?_
  unfold val_main_v44
  by_cases hk : k.val < 128
  · rw [dif_pos hk]
    exact concatenate_pair_apply_left (t := S50000x256) (s₁ := S50000x128) (s₂ := S50000x128) (1 : Fin 2) x1
      (val_main_v43 (F := Ideal) x0 x2 x3 x4 x5 x6 x7) concatenates_S50000x128_S50000x128_S50000x256_d1
      (lidx_main_v46 (ix2 n j) k) rfl (ix2 n ⟨k.val, hk⟩) (fun b => by match b with | ⟨0, _⟩ => rfl | ⟨1, _⟩ => rfl)
  · rw [dif_neg hk]
    have hk2 : k.val < 256 := k.isLt
    refine (concatenate_pair_apply_right (t := S50000x256) (s₁ := S50000x128) (s₂ := S50000x128) (1 : Fin 2) x1
      (val_main_v43 (F := Ideal) x0 x2 x3 x4 x5 x6 x7) concatenates_S50000x128_S50000x128_S50000x256_d1
      (lidx_main_v46 (ix2 n j) k) rfl rfl
      (ix2 n ⟨k.val - 128, by omega⟩) (fun b hb => ?_) ?_).trans (agg_apply x0 x2 x3 x4 x5 x6 x7 n ⟨k.val - 128, by omega⟩)
    · match b with
      | ⟨0, _⟩ => rfl
      | ⟨1, _⟩ => exact absurd rfl hb
    · show k.val - 128 + 128 = k.val
      omega

end Cert.ReferenceIdeal.RefValue

end
-- ==== Proof.KernelValue.lean ====
/-
  The idealized kernel's result at an entry, and its agreement with the reference's.

  The result buffer is the combine region's output array: at (n, j) the two half contractions of x(n) and agg(n) with
  the halves of row j of the combining matrix, plus the bias.  The aggregate it reads is the host's accumulating scatter
  of the edge-filter region's message rows along the padded start nodes, and a message entry is (filter row + bias)
  times the padded scaled gathered row.  Reading the pads and the transposes at an index puts this in the padded
  arrangement of the mathematics module; the pads' facts (an edge below 1600000 reads the unpadded data, a padded edge
  has a zero gathered row) are its hypotheses, and its theorem gives the reference's arrangement, which the reference's
  own result is.
-/
import proofs.«122496_j52561809768953_1_alg».proof.Proof.KernelReads
import proofs.«122496_j52561809768953_1_alg».proof.Proof.Combine
import proofs.«122496_j52561809768953_1_alg».proof.Proof.EdgeFilter
import proofs.«122496_j52561809768953_1_alg».proof.Proof.LibPadRead
import proofs.«122496_j52561809768953_1_alg».proof.Proof.LibRowGatherScatter
import proofs.«122496_j52561809768953_1_alg».proof.Proof.EdgeAlgebra
import proofs.«122496_j52561809768953_1_alg».proof.Proof.RefValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

/-- A padded edge's start node, read as a signed integer. -/
def srcp : Fin 1605632 → ℤ := fun e =>
  ((broadcastInDim S1605632x1 ![0] bcast_S1605632_S1605632x1_0 (pad S1605632 ![0] ![5632] ![0] (Cert.ReferenceIdeal.Read.val_main_v1 (F := Ideal) (m ((c : Thread nD τ).loc main_arg2))) (constantI S_ 32 0#32) pads_S1600000_S1605632_056320 h_S_)) (ix2 e (0 : Fin 1))).toInt

/-! ## Layout operations read at an index -/

theorem wx_apply (k j : Fin 128) :
    (V9 m ρ c main_v49 : S128x128.Idx → EReal) (ix2 k j) = ((m ((c : Thread nD τ).loc main_arg8)) : S128x256.Idx → EReal) (ix2 j (⟨k.val, by omega⟩ : Fin 256)) := by
  rw [Reads.wx_eq m ρ c, truncf_apply, transpose_ix2_apply]
  exact slice2_axis1_apply (n0 := 128) (n1 := 256) (m := 128) 0 ((m ((c : Thread nD τ).loc main_arg8)) : S128x256.Idx → EReal) slices_S128x256_S128x128_0_0 j k
    ⟨k.val, by omega⟩ (Nat.zero_add _).symm

theorem wa_apply (k j : Fin 128) :
    (V9 m ρ c main_v51 : S128x128.Idx → EReal) (ix2 k j) = ((m ((c : Thread nD τ).loc main_arg8)) : S128x256.Idx → EReal) (ix2 j (⟨128 + k.val, by omega⟩ : Fin 256)) := by
  rw [Reads.wa_eq m ρ c, truncf_apply, transpose_ix2_apply]
  exact slice2_axis1_apply (n0 := 128) (n1 := 256) (m := 128) 128 ((m ((c : Thread nD τ).loc main_arg8)) : S128x256.Idx → EReal) slices_S128x256_S128x128_0_128 j k
    ⟨128 + k.val, by omega⟩ rfl

theorem projT_apply (q : Fin 64) (h : Fin 128) :
    (V7 m ρ c main_v41 : S64x128.Idx → EReal) (ix2 q h) = ((m ((c : Thread nD τ).loc main_arg6)) : S128x64.Idx → EReal) (ix2 h q) := by
  rw [Reads.projT_eq m ρ c, truncf_apply, transpose_ix2_apply]

/-- A per-edge vector placed as a column and repeated along the 128 columns reads, at (e, h), the vector at e. -/
theorem column_bcast_apply (sc : S1600000.Idx → EReal) (e : Fin 1600000) (h : Fin 128) :
    broadcastInDim S1600000x128 ![0, 1] bcast_S1600000x1_S1600000x128_0_1
      (broadcastInDim S1600000x1 ![0] bcast_S1600000_S1600000x1_0 sc) (ix2 e h) = sc (ix1 e) := by
  rw [broadcastInDim_apply (s := S1600000x1) (t := S1600000x128) ![0, 1] bcast_S1600000x1_S1600000x128_0_1 _ (ix2 e h)
    (ix2 e (0 : Fin 1)) (fun a => by match a with | ⟨0, _⟩ => rfl | ⟨1, _⟩ => rfl)]
  exact broadcastInDim_apply (s := S1600000) (t := S1600000x1) ![0] bcast_S1600000_S1600000x1_0 sc (ix2 e (0 : Fin 1)) (ix1 e)
    (fun a => by match a with | ⟨0, _⟩ => rfl)

/-- The zero table the scatter accumulates into, read at an entry. -/
theorem zeros_apply (i : S50000x128.Idx) :
    broadcastInDim S50000x128 ![] bcast_S_S50000x128 (constant (F := Ideal) S_ .f32 0x00000000#32) i = 0 :=
  Ideal.ofBits_zero_f32

/-! ## The kernel's scatter -/

theorem scatter_wf : ScatterDims.WF ⟨2, ![50000, 128]⟩ ⟨2, ![1605632, 1]⟩ ⟨2, ![1605632, 128]⟩ [1] [0] [0] 1 :=
  scatter_S50000x128_S1605632x1_S1605632x128_1_0_0_1.wf
/-- The kernel's scatter is the accumulating scatter of whole rows into a [50000, 128] table along [1605632, 1] row
    numbers. -/
theorem scatter_rec_eq : scatter_S50000x128_S1605632x1_S1605632x128_1_0_0_1
    = Cert.Lib.Rows.rowScatterDims 50000 128 1605632 scatter_wf := rfl
theorem scatter_host_eq (x : FVec Ideal S50000x128 .f32) (idx : IVec S1605632x1 32) (upd : FVec Ideal S1605632x128 .f32) :
    Host.scatterAdd (F := Ideal) (φ := .f32) scatter_S50000x128_S1605632x1_S1605632x128_1_0_0_1 x idx upd
      = Ideal.hostScatterAdd scatter_S50000x128_S1605632x1_S1605632x128_1_0_0_1 x idx upd := rfl

/-! ## The result, entry by entry -/

/-- A MESSAGE ENTRY of the edge-filter region's output. -/
theorem msg_apply (e : Fin 1605632) (h : Fin 128) :
    ((dat0 (V7 m ρ) c).arrAt 4 cfg0.N : S1605632x128.Idx → EReal) (ix2 e h)
      = Cert.EdgeConv.msgK (m ((c : Thread nD τ).loc main_arg6)) (m ((c : Thread nD τ).loc main_arg7)) (V7 m ρ c main_v38) (V7 m ρ c main_v39) e h := by
  rw [EdgeFilter.final (V7 m ρ) c, EdgeFilter.G_apply]
  unfold Cert.EdgeConv.msgK
  simp only [projT_apply m ρ c, Reads.pb_eq m ρ c]

set_option maxHeartbeats 400000 in
/-- AN AGGREGATE ENTRY as the combine region finds it. -/
theorem agg_apply (n : Fin 50000) (h : Fin 128) :
    (V9 m ρ c main_v45 : S50000x128.Idx → EReal) (ix2 n h)
      = Cert.EdgeConv.aggK (m ((c : Thread nD τ).loc main_arg6)) (m ((c : Thread nD τ).loc main_arg7)) (V7 m ρ c main_v38) (V7 m ρ c main_v39) (srcp m c) n h := by
  rw [Reads.agg_eq m ρ c, scatter_host_eq, scatter_rec_eq, Cert.Lib.Rows.scatterAdd_rows_apply, zeros_apply]
  unfold Cert.EdgeConv.aggK srcp
  refine congrArg (fun s : EReal => 0 + s) ?_
  refine Finset.sum_congr ?_ fun e _ => msg_apply m ρ c e h
  rfl

set_option maxHeartbeats 400000 in
/-- THE RESULT AT (n, j), in the padded arrangement. -/
theorem result_apply (n : Fin 50000) (j : Fin 128) :
    (W10 m ρ c (Proc.devRef .tc main_v52) : S50000x128.Idx → EReal) (ix2 n j)
      = Cert.EdgeConv.outK (m ((c : Thread nD τ).loc main_arg1)) (m ((c : Thread nD τ).loc main_arg8)) (m ((c : Thread nD τ).loc main_arg9)) (m ((c : Thread nD τ).loc main_arg6)) (m ((c : Thread nD τ).loc main_arg7)) (V7 m ρ c main_v38) (V7 m ρ c main_v39) (srcp m c) n j := by
  rw [show W10 m ρ c (Proc.devRef .tc main_v52) = (dat1 (V9 m ρ) c).arrAt 5 cfg1.N from W10_arr m ρ c 5]
  rw [Combine.final (V9 m ρ) c, Combine.G_apply]
  unfold Cert.EdgeConv.outK
  simp only [wx_apply m ρ c, wa_apply m ρ c, agg_apply m ρ c, Reads.x_eq m ρ c, Reads.cb_eq m ρ c]

/-! ## The pads' facts -/

theorem attr_inside (e : Fin 1600000) (k : Fin 64) :
    (V7 m ρ c main_v38 : S1605632x64.Idx → EReal) (ix2 (Fin.castLE (by norm_num : 1600000 ≤ 1605632) e) k) = ((m ((c : Thread nD τ).loc main_arg4)) : S1600000x64.Idx → EReal) (ix2 e k) := by
  rw [Reads.attr_eq m ρ c, truncf_apply]
  exact Cert.LibPadRead.pad_apply_inside_plain S1605632x64 ![0, 0] ![5632, 0] ![0, 0] ((m ((c : Thread nD τ).loc main_arg4)) : S1600000x64.Idx → EReal) _
    pads_S1600000x64_S1605632x64_056320_000 h_S_ (fun a => by fin_cases a <;> rfl) (ix2 (Fin.castLE (by norm_num : 1600000 ≤ 1605632) e) k) (ix2 e k)
    (fun a => by
      match a with
      | ⟨0, _⟩ => show e.val = 0 + e.val; omega
      | ⟨1, _⟩ => show k.val = 0 + k.val; omega)

theorem hdst_inside (e : Fin 1600000) (h : Fin 128) :
    (V7 m ρ c main_v39 : S1605632x128.Idx → EReal) (ix2 (Fin.castLE (by norm_num : 1600000 ≤ 1605632) e) h)
      = ((Cert.ReferenceIdeal.Read.val_main_v39 (F := Ideal) (m ((c : Thread nD τ).loc main_arg0)) (m ((c : Thread nD τ).loc main_arg2)) (m ((c : Thread nD τ).loc main_arg5))) : S1600000x128.Idx → EReal) (ix2 e h) * ((Cert.ReferenceIdeal.Read.val_main_v22 (F := Ideal) (m ((c : Thread nD τ).loc main_arg2)) (m ((c : Thread nD τ).loc main_arg3))) : S1600000.Idx → EReal) (ix1 e) := by
  rw [Reads.hdst_eq m ρ c, truncf_apply]
  rw [Cert.LibPadRead.pad_apply_inside_plain S1605632x128 ![0, 0] ![5632, 0] ![0, 0] _ _
    pads_S1600000x128_S1605632x128_056320_000 h_S_ (fun a => by fin_cases a <;> rfl) (ix2 (Fin.castLE (by norm_num : 1600000 ≤ 1605632) e) h) (ix2 e h)
    (fun a => by
      match a with
      | ⟨0, _⟩ => show e.val = 0 + e.val; omega
      | ⟨1, _⟩ => show h.val = 0 + h.val; omega)]
  rw [mulf_apply, column_bcast_apply]

theorem hdst_outside (e : Fin 1605632) (h : Fin 128) (he : 1600000 ≤ e.val) :
    (V7 m ρ c main_v39 : S1605632x128.Idx → EReal) (ix2 e h) = (0 : EReal) := by
  rw [Reads.hdst_eq m ρ c, truncf_apply]
  refine (Cert.LibPadRead.pad_apply_outside_plain (s := S1600000x128) S1605632x128 ![0, 0] ![5632, 0] ![0, 0] _ _
    pads_S1600000x128_S1605632x128_056320_000 h_S_ (fun a => by fin_cases a <;> rfl) (ix2 e h) (0 : Fin 2)
    (Or.inr (show 0 + 1600000 ≤ e.val by omega))).trans ?_
  show ((((0#32 : BitVec 32)).toInt : ℝ) : EReal) = (0 : EReal)
  simp

theorem src_inside (e : Fin 1600000) :
    srcp m c (Fin.castLE (by norm_num : 1600000 ≤ 1605632) e) = Cert.ReferenceIdeal.RefValue.src (m ((c : Thread nD τ).loc main_arg2)) e := by
  unfold srcp Cert.ReferenceIdeal.RefValue.src
  refine congrArg BitVec.toInt ?_
  rw [broadcastInDim_apply (s := S1605632) (t := S1605632x1) ![0] bcast_S1605632_S1605632x1_0 _
    (ix2 (Fin.castLE (by norm_num : 1600000 ≤ 1605632) e) (0 : Fin 1)) (ix1 (Fin.castLE (by norm_num : 1600000 ≤ 1605632) e))
    (fun a => by match a with | ⟨0, _⟩ => rfl)]
  rw [Cert.LibPadRead.pad_apply_inside_plain S1605632 ![0] ![5632] ![0] _ _ pads_S1600000_S1605632_056320 h_S_
    (fun a => by fin_cases a <;> rfl) (ix1 (Fin.castLE (by norm_num : 1600000 ≤ 1605632) e)) (ix1 e) (fun a => by match a with | ⟨0, _⟩ => (show e.val = 0 + e.val; omega))]
  rw [Cert.ReferenceIdeal.Read.val_main_v42_apply]
  exact congrArg _ (funext fun a => Fin.ext (by match a with | ⟨0, _⟩ => rfl))

/-! ## The two results agree -/

/-- THE KERNEL'S RESULT IS THE REFERENCE'S, entry by entry, as functions of the same arguments. -/
theorem result_eq : (W10 m ρ c (Proc.devRef .tc main_v52) : S50000x128.Idx → EReal)
    = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨n, j, rfl⟩ : ∃ (n : Fin 50000) (j : Fin 128), i = ix2 n j := ⟨i 0, i 1, eq_ix2 i⟩
  rw [result_apply, Cert.ReferenceIdeal.RefValue.out_apply]
  exact Cert.EdgeConv.outK_eq_outR _ _ _ (attr_inside m ρ c) (hdst_inside m ρ c) (hdst_outside m ρ c) (src_inside m c) n j

end Cert.KernelIdeal.KernelValue

end
-- ==== Proof.lean ====
/-
  An edge-message graph layer: the kernel against its reference, over the extended reals.

  Both programs compute, for every node n and output column j,
      out(n, j) = Σ_k [x(n), agg(n)](k) · W(j, k) + b(j),
  where agg(n) is the sum over the edges that start at n of the message rows
      msg(e, h) = (Σ_k attr(e, k) · P(h, k) + p(h)) · scale(e) · emb(type(end(e)), h),
  with scale(e) the cosine cutoff of the edge's length times the indicator that the edge is not a loop.

  The reference does this as written.  The kernel pads the edge list from 1600000 to 1605632 edges (zero features, zero
  scaled embedding rows, start node 0), forms the messages in a grid region of 196 blocks of 8192 edges with the scale
  multiplied into the embedding row beforehand, aggregates on the host, and contracts the two halves of the joined row
  separately in a second grid region of 10 blocks of 5000 nodes.  The two results are equal entry by entry because
  multiplication of extended reals is commutative and associative, a padded edge's message is a product with zero and
  so adds nothing to node 0, and a sum over 256 terms is the sum of its two halves; the changes of float format are the
  identity on extended reals.  The finiteness of the inputs is not used.

  The modules: `KernelRun` (the kernel's run with its result named), `EdgeFilter` and `Combine` (each grid region's
  output array as one function of the arrays it finds), `KernelReads` (those arrays as terms of the arguments),
  `RefValue` (the reference's result at an entry), `EdgeAlgebra` (the two arrangements agree), `KernelValue` (the
  kernel's result at an entry, and the agreement); three general lemma files on matrix products, pads and row scatters.
-/
import proofs.«122496_j52561809768953_1_alg».proof.Defs
import proofs.«122496_j52561809768953_1_alg».proof.Proof.Gen.Kernel
import proofs.«122496_j52561809768953_1_alg».proof.Proof.Gen.Kernel.Skeleton
import proofs.«122496_j52561809768953_1_alg».proof.Proof.Gen.Kernel.Launch
import proofs.«122496_j52561809768953_1_alg».proof.Proof.Gen.Kernel.Points
import proofs.«122496_j52561809768953_1_alg».proof.Proof.Gen.Kernel.Frame
import proofs.«122496_j52561809768953_1_alg».proof.Proof.Gen.KernelIdeal
import proofs.«122496_j52561809768953_1_alg».proof.Proof.Gen.KernelIdeal.Skeleton
import proofs.«122496_j52561809768953_1_alg».proof.Proof.Gen.KernelIdeal.Launch
import proofs.«122496_j52561809768953_1_alg».proof.Proof.Gen.KernelIdeal.Points
import proofs.«122496_j52561809768953_1_alg».proof.Proof.Gen.KernelIdeal.Frame
import proofs.«122496_j52561809768953_1_alg».proof.Proof.Gen.ReferenceIdeal
import proofs.«122496_j52561809768953_1_alg».proof.Proof.Gen.ReferenceIdeal.Run
import proofs.«122496_j52561809768953_1_alg».proof.Proof.Gen.ReferenceIdeal.Read
import proofs.«122496_j52561809768953_1_alg».proof.Proof.Gen.Pre_finite_inputs
import proofs.«122496_j52561809768953_1_alg».proof.Proof.KernelRun
import proofs.«122496_j52561809768953_1_alg».proof.Proof.KernelValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is one line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, both programs end with the same result array: the kernel's is the last
    stage of its segments' fold, the reference's its composed term, and the two are one function of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v52),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.ReferenceIdeal.Read.val_main_v49_eq _ _ _ _ _ _ _ _ _ _).trans (Cert.KernelIdeal.KernelValue.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
